-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x512x4 : Shape := ⟨4, ![2, 64, 512, 4]⟩
abbrev S_ : Shape := ⟨0, ![]⟩

class Facts : Prop where
  bcast_S_S2x64x512x4 : S_.BroadcastsInDim S2x64x512x4 (![] : Fin 0 → Fin S2x64x512x4.rank)
  reducesTo_S2x64x512x4_S_d0_1_2_3 : S2x64x512x4.ReducesTo [0, 1, 2, 3] S_
  h_S_ : 0 < S_.numel

variable [Facts]

def fn {F : FTy → Type} [FloatOps F] (main_arg0 : FVec F S2x64x512x4 .f32) (main_arg1 : FVec F S2x64x512x4 .f32) : IVec S_ 1 :=
  let main_v0 : FVec F S2x64x512x4 .f32 := Host.absf main_arg0
  let main_cst : FVec F S_ .f32 := constant S_ .f32 0x7F800000#32
  let main_v1 : FVec F S2x64x512x4 .f32 := broadcastInDim S2x64x512x4 ![] bcast_S_S2x64x512x4 main_cst
  let main_v2 : IVec S2x64x512x4 1 := cmpf .olt main_v0 main_v1
  let main_c : IVec S_ 1 := constantI S_ 1 1#1
  let main_v3 : IVec S_ 1 := (fun x v => Host.reduce IntOp.andi x v reducesTo_S2x64x512x4_S_d0_1_2_3 h_S_) main_v2 main_c
  let main_v4 : FVec F S2x64x512x4 .f32 := Host.absf main_arg1
  let main_cst_0 : FVec F S_ .f32 := constant S_ .f32 0x7F800000#32
  let main_v5 : FVec F S2x64x512x4 .f32 := broadcastInDim S2x64x512x4 ![] bcast_S_S2x64x512x4 main_cst_0
  let main_v6 : IVec S2x64x512x4 1 := cmpf .olt main_v4 main_v5
  let main_c_1 : IVec S_ 1 := constantI S_ 1 1#1
  let main_v7 : IVec S_ 1 := (fun x v => Host.reduce IntOp.andi x v reducesTo_S2x64x512x4_S_d0_1_2_3 h_S_) main_v6 main_c_1
  let main_v8 : IVec S_ 1 := andi main_v3 main_v7
  main_v8
-- ==== Kernel.lean ====
abbrev S2x64x512x4 : Shape := ⟨4, ![2, 64, 512, 4]⟩
abbrev S2x64x4x512 : Shape := ⟨4, ![2, 64, 4, 512]⟩
abbrev S64x512 : Shape := ⟨2, ![64, 512]⟩
abbrev S2x16x4x512 : Shape := ⟨4, ![2, 16, 4, 512]⟩
abbrev S16x512 : Shape := ⟨2, ![16, 512]⟩
abbrev S4x1 : Shape := ⟨2, ![4, 1]⟩
abbrev S1x1x4x512 : Shape := ⟨4, ![1, 1, 4, 512]⟩
abbrev S4x512 : Shape := ⟨2, ![4, 512]⟩
abbrev S512x512 : Shape := ⟨2, ![512, 512]⟩
abbrev S512 : Shape := ⟨1, ![512]⟩
abbrev S1x512 : Shape := ⟨2, ![1, 512]⟩
abbrev S512x1 : Shape := ⟨2, ![512, 1]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S2x64x512x4, .f32⟩
  | .hbm, ⟨1, _⟩ => ⟨S2x64x512x4, .f32⟩
  | .hbm, ⟨2, _⟩ => ⟨S2x64x4x512, .f32⟩
  | .hbm, ⟨3, _⟩ => ⟨S2x64x4x512, .f32⟩
  | .hbm, ⟨4, _⟩ => ⟨S64x512, .f32⟩
  | .hbm, ⟨5, _⟩ => ⟨S64x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2x16x4x512, .f32⟩
  | .local _ .vmem, ⟨1, _⟩ => ⟨S2x16x4x512, .f32⟩
  | .local _ .vmem, ⟨2, _⟩ => ⟨S2x16x4x512, .f32⟩
  | .local _ .vmem, ⟨3, _⟩ => ⟨S2x16x4x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S2x64x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c16_i32 : BitVec 32 := 16#32
  let v6 : BitVec 32 := Scalar.addi c0_i32_1 c16_i32
  let c1_i32 : BitVec 32 := 1#32
  ⟨c0_i32_1, v6, c1_i32⟩
def k0_off1 (k0_t1 : Fin k0_t1_loop.trips) : Fin 4 → Nat :=
  let c0 : Index := 0#32
  let c0_i32_4 : BitVec 32 := 0#32
  let c0_i32_1 : BitVec 32 := 0#32
  let c1_i32 : BitVec 32 := 1#32
  let arg5 : BitVec 32 := Scf.iv c0_i32_1 c1_i32 k0_t1
  let c1_i32_3 : BitVec 32 := 1#32
  let v7 : BitVec 32 := Scalar.muli arg5 c1_i32_3
  let v8 : BitVec 32 := Scalar.addi c0_i32_4 v7
  let v9 : Index := Scalar.indexCast v8
  let c0_5 : Index := 0#32
  let c0_6 : Index := 0#32
  ![0, v9.toNat, 0, 0]
def k0_off2 (k0_t1 : Fin k0_t1_loop.trips) : Fin 4 → Nat :=
  let c1 : Index := 1#32
  let c0_i32_4 : BitVec 32 := 0#32
  let c0_i32_1 : BitVec 32 := 0#32
  let c1_i32 : BitVec 32 := 1#32
  let arg5 : BitVec 32 := Scf.iv c0_i32_1 c1_i32 k0_t1
  let c1_i32_3 : BitVec 32 := 1#32
  let v7 : BitVec 32 := Scalar.muli arg5 c1_i32_3
  let v8 : BitVec 32 := Scalar.addi c0_i32_4 v7
  let v12 : Index := Scalar.indexCast v8
  let c0_7 : Index := 0#32
  let c0_8 : Index := 0#32
  ![1, v12.toNat, 0, 0]
def k0_off3 (k0_t1 : Fin k0_t1_loop.trips) : Fin 2 → Nat :=
  let c0_i32_4 : BitVec 32 := 0#32
  let c0_i32_1 : BitVec 32 := 0#32
  let c1_i32 : BitVec 32 := 1#32
  let arg5 : BitVec 32 := Scf.iv c0_i32_1 c1_i32 k0_t1
  let c1_i32_3 : BitVec 32 := 1#32
  let v7 : BitVec 32 := Scalar.muli arg5 c1_i32_3
  let v8 : BitVec 32 := Scalar.addi c0_i32_4 v7
  let v65 : Index := Scalar.indexCast v8
  let c0_27 : Index := 0#32
  ![v65.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x16x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2x64x512x4_S2x64x4x512_0_1_3_2 : S2x64x512x4.Transposes [0, 1, 3, 2] S2x64x4x512
  iota_S4x1_d0_w32 : S4x1.Iotas .tc 32 [0]
  h_S1x1x4x512 : 0 < S1x1x4x512.numel
  shapeCasts_S1x1x4x512_S4x512 : S1x1x4x512.ShapeCasts S4x512
  broadcasts_S4x1_S4x512 : S4x1.Broadcasts S4x512
  reduces_S4x512_S512 : S4x512.Reduces [0] S512
  shapeCasts_S512_S1x512 : S512.ShapeCasts S1x512
  transposes_S1x512_p1_0_S512x1 : S1x512.Transposes [1, 0] S512x1
  broadcasts_S512x1_S512x512 : S512x1.Broadcasts S512x512
  broadcasts_S1x512_S512x512 : S1x512.Broadcasts S512x512
  reduces_S512x512_S512 : S512x512.Reduces [1] S512
  reduces_S512x512_S512_2 : S512x512.Reduces [0] S512
  h_S1x512 : 0 < S1x512.numel
  shapeCasts_S1x512_S512 : S1x512.ShapeCasts S512
  reducesTo_S64x512_S_d0_1 : S64x512.ReducesTo [0, 1] S_
  h_S_ : 0 < S_.numel
  dot_S4x512_S4x512_S512x512_0_0_1_1_n_n_wf : DotDims.WF S4x512 S4x512 S512x512 [0] [0] [1] [1] [] []
  hrank0 : 0 < grid0.rank
  k0_t1_ok : k0_t1_loop.OK
  k0_off1_inb : ∀ k0_t1 : Fin k0_t1_loop.trips, ∀ a, (k0_off1 k0_t1) a + S1x1x4x512.size a ≤ S2x16x4x512.size a
  k0_off2_inb : ∀ k0_t1 : Fin k0_t1_loop.trips, ∀ a, (k0_off2 k0_t1) a + S1x1x4x512.size a ≤ S2x16x4x512.size a
  k0_off3_inb : ∀ k0_t1 : Fin k0_t1_loop.trips, ∀ a, (k0_off3 k0_t1) a + S1x512.size a ≤ S16x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16x4x512.size a ≤ S2x64x4x512.size a
  hwx0_0 : ∀ i : grid0.Coords, EltTy.bits .f32 = 32 ∨ (Rect.block (s := S2x64x4x512) S2x16x4x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16x4x512.size a ≤ S2x64x4x512.size a
  hwx0_1 : ∀ i : grid0.Coords, EltTy.bits .f32 = 32 ∨ (Rect.block (s := S2x64x4x512) S2x16x4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S64x512.size a
  hwx0_2 : ∀ i : grid0.Coords, EltTy.bits .f32 = 32 ∨ (Rect.block (s := S64x512) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S64x512.size a
  hwx0_3 : ∀ i : grid0.Coords, EltTy.bits .f32 = 32 ∨ (Rect.block (s := S64x512) S16x512.size (cc0_transform_3 i) (hinb0_3 i)).WholeWords (EltTy.packing .f32)

variable [Facts₀]

def dot_S4x512_S4x512_S512x512_0_0_1_1_n_n : DotDims S4x512 S4x512 S512x512 where
  lhsContracting := [0]
  rhsContracting := [0]
  lhsNonContracting := [1]
  rhsNonContracting := [1]
  lhsBatch := []
  rhsBatch := []
  wf := dot_S4x512_S4x512_S512x512_0_0_1_1_n_n_wf

abbrev win0_0 : Pipeline.Window sig grid0 :=
  Pipeline.Window.ofSpec (Memref.whole main_v0) S2x16x4x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x16x4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S16x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x64x512x4 : Shape := ⟨4, ![2, 64, 512, 4]⟩
abbrev S2x64x512x1x4 : Shape := ⟨5, ![2, 64, 512, 1, 4]⟩
abbrev S2x64x1x512x4 : Shape := ⟨5, ![2, 64, 1, 512, 4]⟩
abbrev S2x64x512x512x4 : Shape := ⟨5, ![2, 64, 512, 512, 4]⟩
abbrev S1x64x512x512x4 : Shape := ⟨5, ![1, 64, 512, 512, 4]⟩
abbrev S64x512x512x4 : Shape := ⟨4, ![64, 512, 512, 4]⟩
abbrev S64x512x512x1 : Shape := ⟨4, ![64, 512, 512, 1]⟩
abbrev S64x512x512 : Shape := ⟨3, ![64, 512, 512]⟩
abbrev S_ : Shape := ⟨0, ![]⟩
abbrev S64x512 : Shape := ⟨2, ![64, 512]⟩

abbrev nBuf : Space → Nat
  | .hbm => 52
  | .vmem => 0
  | .smem => 0
  | _ => 0

abbrev bufTy : (tb : Table) → Fin (tcTables nBuf tb) → BufTy
  | .hbm, ⟨0, _⟩ => ⟨S2x64x512x4, .f32⟩
  | .hbm, ⟨1, _⟩ => ⟨S2x64x512x4, .f32⟩
  | .hbm, ⟨2, _⟩ => ⟨S2x64x512x1x4, .f32⟩
  | .hbm, ⟨3, _⟩ => ⟨S2x64x1x512x4, .f32⟩
  | .hbm, ⟨4, _⟩ => ⟨S2x64x512x512x4, .f32⟩
  | .hbm, ⟨5, _⟩ => ⟨S2x64x512x512x4, .f32⟩
  | .hbm, ⟨6, _⟩ => ⟨S2x64x512x512x4, .f32⟩
  | .hbm, ⟨7, _⟩ => ⟨S1x64x512x512x4, .f32⟩
  | .hbm, ⟨8, _⟩ => ⟨S64x512x512x4, .f32⟩
  | .hbm, ⟨9, _⟩ => ⟨S1x64x512x512x4, .f32⟩
  | .hbm, ⟨10, _⟩ => ⟨S64x512x512x4, .f32⟩
  | .hbm, ⟨11, _⟩ => ⟨S64x512x512x4, .f32⟩
  | .hbm, ⟨12, _⟩ => ⟨S64x512x512x1, .f32⟩
  | .hbm, ⟨13, _⟩ => ⟨S64x512x512, .f32⟩
  | .hbm, ⟨14, _⟩ => ⟨S_, .f32⟩
  | .hbm, ⟨15, _⟩ => ⟨S64x512x512, .f32⟩
  | .hbm, ⟨16, _⟩ => ⟨S64x512x512, .f32⟩
  | .hbm, ⟨17, _⟩ => ⟨S_, .f32⟩
  | .hbm, ⟨18, _⟩ => ⟨S64x512x512, .f32⟩
  | .hbm, ⟨19, _⟩ => ⟨S64x512x512, .f32⟩
  | .hbm, ⟨20, _⟩ => ⟨S1x64x512x512x4, .f32⟩
  | .hbm, ⟨21, _⟩ => ⟨S64x512x512x4, .f32⟩
  | .hbm, ⟨22, _⟩ => ⟨S1x64x512x512x4, .f32⟩
  | .hbm, ⟨23, _⟩ => ⟨S64x512x512x4, .f32⟩
  | .hbm, ⟨24, _⟩ => ⟨S64x512x512x4, .f32⟩
  | .hbm, ⟨25, _⟩ => ⟨S64x512x512x1, .f32⟩
  | .hbm, ⟨26, _⟩ => ⟨S64x512x512, .f32⟩
  | .hbm, ⟨27, _⟩ => ⟨S_, .f32⟩
  | .hbm, ⟨28, _⟩ => ⟨S64x512x512, .f32⟩
  | .hbm, ⟨29, _⟩ => ⟨S64x512x512, .f32⟩
  | .hbm, ⟨30, _⟩ => ⟨S_, .f32⟩
  | .hbm, ⟨31, _⟩ => ⟨S64x512x512, .f32⟩
  | .hbm, ⟨32, _⟩ => ⟨S64x512x512, .f32⟩
  | .hbm, ⟨33, _⟩ => ⟨S_, .f32⟩
  | .hbm, ⟨34, _⟩ => ⟨S64x512x512, .f32⟩
  | .hbm, ⟨35, _⟩ => ⟨S64x512x512, .f32⟩
  | .hbm, ⟨36, _⟩ => ⟨S64x512x512, .f32⟩
  | .hbm, ⟨37, _⟩ => ⟨S64x512x512, .f32⟩
  | .hbm, ⟨38, _⟩ => ⟨S64x512x512, .f32⟩
  | .hbm, ⟨39, _⟩ => ⟨S_, .f32⟩
  | .hbm, ⟨40, _⟩ => ⟨S64x512x512, .f32⟩
  | .hbm, ⟨41, _⟩ => ⟨S64x512x512, .f32⟩
  | .hbm, ⟨42, _⟩ => ⟨S64x512x512, .f32⟩
  | .hbm, ⟨43, _⟩ => ⟨S_, .f32⟩
  | .hbm, ⟨44, _⟩ => ⟨S64x512, .f32⟩
  | .hbm, ⟨45, _⟩ => ⟨S_, .f32⟩
  | .hbm, ⟨46, _⟩ => ⟨S64x512, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S2x64x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  bcast_S2x64x512x4_S2x64x512x1x4_0_1_2_4 : S2x64x512x4.BroadcastsInDim S2x64x512x1x4 (![0, 1, 2, 4] : Fin 4 → Fin S2x64x512x1x4.rank)
  bcast_S2x64x512x4_S2x64x1x512x4_0_1_3_4 : S2x64x512x4.BroadcastsInDim S2x64x1x512x4 (![0, 1, 3, 4] : Fin 4 → Fin S2x64x1x512x4.rank)
  bcast_S2x64x512x1x4_S2x64x512x512x4_0_1_2_3_4 : S2x64x512x1x4.BroadcastsInDim S2x64x512x512x4 (![0, 1, 2, 3, 4] : Fin 5 → Fin S2x64x512x512x4.rank)
  bcast_S2x64x1x512x4_S2x64x512x512x4_0_1_2_3_4 : S2x64x1x512x4.BroadcastsInDim S2x64x512x512x4 (![0, 1, 2, 3, 4] : Fin 5 → Fin S2x64x512x512x4.rank)
  slices_S2x64x512x512x4_S1x64x512x512x4_0_0_0_0_0 : S2x64x512x512x4.Slices ![0, 0, 0, 0, 0] S1x64x512x512x4
  shapeCasts_S1x64x512x512x4_S64x512x512x4 : S1x64x512x512x4.ShapeCasts S64x512x512x4
  slices_S64x512x512x4_S64x512x512x1_0_0_0_0 : S64x512x512x4.Slices ![0, 0, 0, 0] S64x512x512x1
  shapeCasts_S64x512x512x1_S64x512x512 : S64x512x512x1.ShapeCasts S64x512x512
  bcast_S_S64x512x512 : S_.BroadcastsInDim S64x512x512 (![] : Fin 0 → Fin S64x512x512.rank)
  reducesTo_S64x512x512x4_S64x512x512_d3 : S64x512x512x4.ReducesTo [3] S64x512x512
  h_S_ : 0 < S_.numel
  slices_S2x64x512x512x4_S1x64x512x512x4_1_0_0_0_0 : S2x64x512x512x4.Slices ![1, 0, 0, 0, 0] S1x64x512x512x4
  reducesTo_S64x512x512_S64x512_d2 : S64x512x512.ReducesTo [2] S64x512
  reducesTo_S64x512x512_S64x512_d1 : S64x512x512.ReducesTo [1] S64x512
  reducesTo_S64x512_S_d0_1 : S64x512.ReducesTo [0, 1] S_

variable [Facts₀]

class Facts : Prop extends Facts₀ where

variable [Facts]
-- ==== Proof.Minkowski.lean ====
/-
  The mathematics shared by the two programs, with no program in sight.

  Each sample holds two sets of 512 points; a point is a pair (real part, imaginary part) of 4-vectors, and
  ⟨u, v⟩ = u₀v₀ − u₁v₁ − u₂v₂ − u₃v₃ is the Minkowski form.  For a point (a0, a1) of the first set and a point
  (c0, c1) of the second, with d0 = a0 − c0 and d1 = a1 − c1, both programs compute

      D = ⟨d0, d0⟩² + (2 ⟨d0, d1⟩)²

  — one by subtracting first and writing the form as 2 u₀v₀ − Σₖ uₖvₖ (`refD2`), the other by expanding it
  bilinearly into forms of the points themselves, ⟨a0,a0⟩ − 2⟨a0,c0⟩ + ⟨c0,c0⟩ and
  ⟨a0,a1⟩ + ⟨c0,c1⟩ − ⟨a0,c1⟩ − ⟨a1,c0⟩, and folding the factor 2 into a 4 outside the square (`kerD2`).
  The two agree wherever every entry is a real number (`kerD2_eq_refD2`): bilinearity is distributivity, which the
  extended reals have only away from the infinities.

  The distance is √(D + ε).  One program takes the square root of every D and then the least over the other set's
  points, the other takes the least D and then one square root; x ↦ √(x + ε) is monotone on the extended reals
  whatever ε is, and a monotone map commutes with the least element of a finite non-empty family, so the two orders
  give one value (`sqrt_add_fold_min`).
-/
import Idealize.ShloMosaic.PureOps.Ideal
import Idealize.ShloMosaic.PureOps.Ideal.Laws
import Idealize.ShloMosaic.Lib.ValueIdx

noncomputable section

namespace Cert.Chamfer

open Idealize.ShloMosaic

/-! ## The literals the programs spell -/

theorem ofBits_one : Ideal.ofBits .f32 0x3F800000#32 = ((1 : ℝ) : EReal) := by
  simp [Ideal.ofBits, Ideal.ieee, -EReal.coe_mul]; norm_num
theorem ofBits_negOne : Ideal.ofBits .f32 0xBF800000#32 = ((-1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_inf : Ideal.ofBits .f32 0x7F800000#32 = ⊤ := by
  simp [Ideal.ofBits, Ideal.ieee]

/-! ## The two arrangements of the squared distance -/

/-- The metric's weights (+, −, −, −), by the literals 1.0 and −1.0. -/
def sgn (k : Fin 4) : EReal :=
  if k = 0 then Ideal.ofBits .f32 0x3F800000#32 else Ideal.ofBits .f32 0xBF800000#32

/-- ⟨u, v⟩, summed as (uₖ · weightₖ) · vₖ. -/
def form (u v : Fin 4 → EReal) : EReal := ∑ k : Fin 4, (u k * sgn k) * v k

/-- D expanded into forms of the points, the factor 2 of the imaginary part taken out of the square as a 4. -/
def kerD2 (a0 a1 c0 c1 : Fin 4 → EReal) : EReal :=
  ((form a0 a0 - Ideal.ofBits .f32 0x40000000#32 * form a0 c0) + form c0 c0)
      * ((form a0 a0 - Ideal.ofBits .f32 0x40000000#32 * form a0 c0) + form c0 c0)
    + Ideal.ofBits .f32 0x40800000#32
      * (((form a0 a1 + form c0 c1) - (form a0 c1 + form a1 c0)) * ((form a0 a1 + form c0 c1) - (form a0 c1 + form a1 c0)))

/-- Componentwise products of the differences: real part squared, and real part times imaginary part. -/
def reSq (a0 c0 : Fin 4 → EReal) (k : Fin 4) : EReal := (a0 k - c0 k) * (a0 k - c0 k)
def reIm (a0 a1 c0 c1 : Fin 4 → EReal) (k : Fin 4) : EReal := (a0 k - c0 k) * (a1 k - c1 k)

/-- D from the differences, the form written 2 u₀v₀ − (0 + Σₖ uₖvₖ). -/
def refD2 (a0 a1 c0 c1 : Fin 4 → EReal) : EReal :=
  (Ideal.ofBits .f32 0x40000000#32 * reSq a0 c0 0 - (Ideal.ofBits .f32 0x00000000#32 + ∑ k : Fin 4, reSq a0 c0 k))
      * (Ideal.ofBits .f32 0x40000000#32 * reSq a0 c0 0 - (Ideal.ofBits .f32 0x00000000#32 + ∑ k : Fin 4, reSq a0 c0 k))
    + (Ideal.ofBits .f32 0x40000000#32 * (Ideal.ofBits .f32 0x40000000#32 * reIm a0 a1 c0 c1 0 - (Ideal.ofBits .f32 0x00000000#32 + ∑ k : Fin 4, reIm a0 a1 c0 c1 k)))
      * (Ideal.ofBits .f32 0x40000000#32 * (Ideal.ofBits .f32 0x40000000#32 * reIm a0 a1 c0 c1 0 - (Ideal.ofBits .f32 0x00000000#32 + ∑ k : Fin 4, reIm a0 a1 c0 c1 k)))

/-- The identity over the reals: both sides are ⟨d0,d0⟩² + 4⟨d0,d1⟩² written out in the sixteen entries. -/
theorem real_identity (p0 p1 q0 q1 : Fin 4 → ℝ) :
    ((p0 0 * 1 * p0 0 + p0 1 * (-1) * p0 1 + p0 2 * (-1) * p0 2 + p0 3 * (-1) * p0 3
          - 2 * (p0 0 * 1 * q0 0 + p0 1 * (-1) * q0 1 + p0 2 * (-1) * q0 2 + p0 3 * (-1) * q0 3))
        + (q0 0 * 1 * q0 0 + q0 1 * (-1) * q0 1 + q0 2 * (-1) * q0 2 + q0 3 * (-1) * q0 3))
      * ((p0 0 * 1 * p0 0 + p0 1 * (-1) * p0 1 + p0 2 * (-1) * p0 2 + p0 3 * (-1) * p0 3
          - 2 * (p0 0 * 1 * q0 0 + p0 1 * (-1) * q0 1 + p0 2 * (-1) * q0 2 + p0 3 * (-1) * q0 3))
        + (q0 0 * 1 * q0 0 + q0 1 * (-1) * q0 1 + q0 2 * (-1) * q0 2 + q0 3 * (-1) * q0 3))
    + 4 * (((p0 0 * 1 * p1 0 + p0 1 * (-1) * p1 1 + p0 2 * (-1) * p1 2 + p0 3 * (-1) * p1 3)
            + (q0 0 * 1 * q1 0 + q0 1 * (-1) * q1 1 + q0 2 * (-1) * q1 2 + q0 3 * (-1) * q1 3)
          - ((p0 0 * 1 * q1 0 + p0 1 * (-1) * q1 1 + p0 2 * (-1) * q1 2 + p0 3 * (-1) * q1 3)
            + (p1 0 * 1 * q0 0 + p1 1 * (-1) * q0 1 + p1 2 * (-1) * q0 2 + p1 3 * (-1) * q0 3)))
        * ((p0 0 * 1 * p1 0 + p0 1 * (-1) * p1 1 + p0 2 * (-1) * p1 2 + p0 3 * (-1) * p1 3)
            + (q0 0 * 1 * q1 0 + q0 1 * (-1) * q1 1 + q0 2 * (-1) * q1 2 + q0 3 * (-1) * q1 3)
          - ((p0 0 * 1 * q1 0 + p0 1 * (-1) * q1 1 + p0 2 * (-1) * q1 2 + p0 3 * (-1) * q1 3)
            + (p1 0 * 1 * q0 0 + p1 1 * (-1) * q0 1 + p1 2 * (-1) * q0 2 + p1 3 * (-1) * q0 3))))
    = (2 * ((p0 0 - q0 0) * (p0 0 - q0 0))
          - (0 + ((p0 0 - q0 0) * (p0 0 - q0 0) + (p0 1 - q0 1) * (p0 1 - q0 1) + (p0 2 - q0 2) * (p0 2 - q0 2) + (p0 3 - q0 3) * (p0 3 - q0 3))))
      * (2 * ((p0 0 - q0 0) * (p0 0 - q0 0))
          - (0 + ((p0 0 - q0 0) * (p0 0 - q0 0) + (p0 1 - q0 1) * (p0 1 - q0 1) + (p0 2 - q0 2) * (p0 2 - q0 2) + (p0 3 - q0 3) * (p0 3 - q0 3))))
    + (2 * (2 * ((p0 0 - q0 0) * (p1 0 - q1 0))
          - (0 + ((p0 0 - q0 0) * (p1 0 - q1 0) + (p0 1 - q0 1) * (p1 1 - q1 1) + (p0 2 - q0 2) * (p1 2 - q1 2) + (p0 3 - q0 3) * (p1 3 - q1 3)))))
      * (2 * (2 * ((p0 0 - q0 0) * (p1 0 - q1 0))
          - (0 + ((p0 0 - q0 0) * (p1 0 - q1 0) + (p0 1 - q0 1) * (p1 1 - q1 1) + (p0 2 - q0 2) * (p1 2 - q1 2) + (p0 3 - q0 3) * (p1 3 - q1 3))))) := by
  ring

/-- On real entries the two arrangements are one number. -/
theorem kerD2_eq_refD2 (a0 a1 c0 c1 : Fin 4 → EReal)
    (h0 : ∀ k, ∃ r : ℝ, a0 k = r) (h1 : ∀ k, ∃ r : ℝ, a1 k = r)
    (h2 : ∀ k, ∃ r : ℝ, c0 k = r) (h3 : ∀ k, ∃ r : ℝ, c1 k = r) :
    kerD2 a0 a1 c0 c1 = refD2 a0 a1 c0 c1 := by
  choose p0 hp0 using h0
  choose p1 hp1 using h1
  choose q0 hq0 using h2
  choose q1 hq1 using h3
  unfold kerD2 refD2 form reSq reIm sgn
  simp only [Fin.sum_univ_four, hp0, hp1, hq0, hq1, ofBits_one, ofBits_negOne, ofBits_two, ofBits_four,
    Ideal.ofBits_zero_f32]
  simp only [Fin.isValue, if_true, Fin.reduceEq, if_false]
  simp only [← EReal.coe_zero, ← EReal.coe_mul, ← EReal.coe_add, ← EReal.coe_sub]
  exact congrArg _ (real_identity p0 p1 q0 q1)

/-! ## √(· + ε) and the least of a family -/

theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe s =>
      have hrs : r ≤ s := EReal.coe_le_coe_iff.mp hxy
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrs)

/-- A monotone map goes through a fold of `min`, the initial value included. -/
theorem map_fold_min {ι : Type*} [DecidableEq ι] {f : EReal → EReal} (hf : Monotone f) (s : Finset ι) (b : EReal) (x : ι → EReal) :
    f (s.fold min b x) = s.fold min (f b) (fun i => f (x i)) := by
  induction s using Finset.induction_on with
  | empty => simp
  | insert a s ha ih => rw [Finset.fold_insert ha, Finset.fold_insert ha, hf.map_min, ih]

/-- Over a non-empty family the initial value ⊤ may be replaced by anything no smaller than some member. -/
theorem fold_min_init {ι : Type*} (s : Finset ι) (x : ι → EReal) (b : EReal) (i₀ : ι) (hi₀ : i₀ ∈ s) (hb : x i₀ ≤ b) :
    s.fold min b x = s.fold min ⊤ x := by
  apply le_antisymm
  · exact (Finset.le_fold_min _).mpr ⟨le_top, fun i hi => (Finset.fold_min_le _).mpr (Or.inr ⟨i, hi, le_rfl⟩)⟩
  · exact (Finset.le_fold_min _).mpr ⟨(Finset.fold_min_le _).mpr (Or.inr ⟨i₀, hi₀, hb⟩),
      fun i hi => (Finset.fold_min_le _).mpr (Or.inr ⟨i, hi, le_rfl⟩)⟩

/-- One square root after the least, or the least of the square roots: the same, for a non-empty family and any ε. -/
theorem sqrt_add_fold_min {ι : Type*} [DecidableEq ι] (s : Finset ι) (hs : s.Nonempty) (x : ι → EReal) (e : EReal) :
    Ideal.sqrt (s.fold min ⊤ x + e) = s.fold min ⊤ (fun i => Ideal.sqrt (x i + e)) := by
  have hf : Monotone fun z : EReal => Ideal.sqrt (z + e) := fun a b hab => sqrt_mono (add_le_add hab le_rfl)
  obtain ⟨i₀, hi₀⟩ := hs
  refine (map_fold_min hf s ⊤ x).trans ?_
  exact fold_min_init s (fun i => Ideal.sqrt (x i + e)) _ i₀ hi₀ (hf le_top)

/-! ## The two tables of least distances -/

/-- The shape of each input: part (0 real, 1 imaginary) × sample × point × component. -/
abbrev SIn : Shape := ⟨4, ![2, 64, 512, 4]⟩

/-- The 4-vector held at part `a` of point `n` of sample `b`. -/
def vec (X : SIn.Idx → EReal) (a : Fin 2) (b : Fin 64) (n : Fin 512) : Fin 4 → EReal :=
  fun k => X (ValueIdx.ix4 a b n k)

/-- For point `n` of the first set: the least D over the second set's points, then ε and one square root. -/
def kerPQ (P Q : SIn.Idx → EReal) (b : Fin 64) (n : Fin 512) : EReal :=
  Ideal.sqrt ((Finset.univ : Finset (Fin 512)).fold min (Ideal.ofBits .f32 0x7F800000#32)
      (fun m => kerD2 (vec P 0 b n) (vec P 1 b n) (vec Q 0 b m) (vec Q 1 b m)) + Ideal.ofBits .f32 0x2B8CBCCC#32)

/-- For point `m` of the second set: the least D over the first set's points, then ε and one square root. -/
def kerQP (P Q : SIn.Idx → EReal) (b : Fin 64) (m : Fin 512) : EReal :=
  Ideal.sqrt ((Finset.univ : Finset (Fin 512)).fold min (Ideal.ofBits .f32 0x7F800000#32)
      (fun n => kerD2 (vec P 0 b n) (vec P 1 b n) (vec Q 0 b m) (vec Q 1 b m)) + Ideal.ofBits .f32 0x2B8CBCCC#32)

/-- For point `n` of the first set: the least distance √(D + ε) over the second set's points. -/
def refPQ (P Q : SIn.Idx → EReal) (b : Fin 64) (n : Fin 512) : EReal :=
  (Finset.univ : Finset (Fin 512)).fold min (Ideal.ofBits .f32 0x7F800000#32)
    (fun m => Ideal.sqrt (refD2 (vec P 0 b n) (vec P 1 b n) (vec Q 0 b m) (vec Q 1 b m) + Ideal.ofBits .f32 0x2B8CBCCC#32))

/-- For point `m` of the second set: the least distance √(D + ε) over the first set's points. -/
def refQP (P Q : SIn.Idx → EReal) (b : Fin 64) (m : Fin 512) : EReal :=
  (Finset.univ : Finset (Fin 512)).fold min (Ideal.ofBits .f32 0x7F800000#32)
    (fun n => Ideal.sqrt (refD2 (vec P 0 b n) (vec P 1 b n) (vec Q 0 b m) (vec Q 1 b m) + Ideal.ofBits .f32 0x2B8CBCCC#32))

/-- On real-valued inputs the two programs' first tables agree entry by entry. -/
theorem kerPQ_eq_refPQ (P Q : SIn.Idx → EReal) (hP : ∀ i, ∃ r : ℝ, P i = r) (hQ : ∀ i, ∃ r : ℝ, Q i = r)
    (b : Fin 64) (n : Fin 512) : kerPQ P Q b n = refPQ P Q b n := by
  unfold kerPQ refPQ
  rw [ofBits_inf, sqrt_add_fold_min _ ⟨0, Finset.mem_univ _⟩]
  refine congrArg (Finset.fold min ⊤ · Finset.univ) (funext fun m => ?_)
  rw [kerD2_eq_refD2 (vec P 0 b n) (vec P 1 b n) (vec Q 0 b m) (vec Q 1 b m)
    (fun k => hP _) (fun k => hP _) (fun k => hQ _) (fun k => hQ _)]

/-- And their second tables. -/
theorem kerQP_eq_refQP (P Q : SIn.Idx → EReal) (hP : ∀ i, ∃ r : ℝ, P i = r) (hQ : ∀ i, ∃ r : ℝ, Q i = r)
    (b : Fin 64) (m : Fin 512) : kerQP P Q b m = refQP P Q b m := by
  unfold kerQP refQP
  rw [ofBits_inf, sqrt_add_fold_min _ ⟨0, Finset.mem_univ _⟩]
  refine congrArg (Finset.fold min ⊤ · Finset.univ) (funext fun n => ?_)
  rw [kerD2_eq_refD2 (vec P 0 b n) (vec P 1 b n) (vec Q 0 b m) (vec Q 1 b m)
    (fun k => hP _) (fun k => hP _) (fun k => hQ _) (fun k => hQ _)]

end Cert.Chamfer

end
-- ==== Proof.Finite.lean ====
/-
  The precondition decoded: every entry of the two inputs is a real number.

  The precondition compares, entry by entry, the absolute value |x| = max x (−x) with +∞ (the word 0x7F800000), takes the
  conjunction of the comparisons over all four axes, once per input, and joins the two conjunctions.  It holds exactly
  when every comparison holds.  On the extended reals |x| < +∞ rules out both infinities (|+∞| = |−∞| = +∞), so what is
  left of an entry is a real number.
-/
import proofs.«105863_j52544629899782_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

/-- The word the entries are compared with is +∞. -/
theorem ofBits_inf : Ideal.ofBits .f32 0x7F800000#32 = ⊤ := by
  simp [Ideal.ofBits, Ideal.ieee]

/-- The scalar shape has one index. -/
instance : Subsingleton Cert.Pre_finite_inputs.S_.Idx := ⟨fun a b => funext fun d => d.elim0⟩

/-- An entry whose absolute value compares strictly below +∞ is a real number: each infinity has absolute value +∞. -/
theorem real_of_abs_lt_inf (x : EReal)
    (h : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  have hlt : max x (-x) < ⊤ := by
    have h' : BitVec.ofBool (decide (max x (-x) < Ideal.ofBits .f32 0x7F800000#32)) = 1#1 := h
    rw [ofBits_inf] at h'
    cases hd : decide (max x (-x) < (⊤ : EReal)) with
    | true => exact of_decide_eq_true hd
    | false => rw [hd] at h'; exact absurd h' (by decide)
  induction x using EReal.rec with
  | bot => simp at hlt
  | top => simp at hlt
  | coe r => exact ⟨r, rfl⟩

/-- The precondition gives: every entry of either input is a real number. -/
theorem real_of_pre [Cert.Pre_finite_inputs.Facts] (P Q : FVec Ideal Cert.Pre_finite_inputs.S2x64x512x4 .f32)
    (h : Cert.Pre_finite_inputs.fn (F := Ideal) P Q = (fun _ => 1#1)) :
    (∀ i, ∃ r : ℝ, P i = (r : EReal)) ∧ (∀ i, ∃ r : ℝ, Q i = (r : EReal)) := by
  have e := congrFun h ValueIdx.ix0
  dsimp only [Cert.Pre_finite_inputs.fn] at e
  obtain ⟨e0, e1⟩ := IntOp.andi_eq_one.1 e
  exact ⟨fun i => real_of_abs_lt_inf _ (Host.reduce_andi_all _ _ _ _ _ e0 i),
    fun i => real_of_abs_lt_inf _ (Host.reduce_andi_all _ _ _ _ _ e1 i)⟩

end Cert.Finite

end
-- ==== Proof.RefRead.lean ====
/-
  The reference at an index: its two per-sample minimum tables, read entry by entry.

  The reference forms the difference tensor d[a, b, n, m, k] = p[a, b, n, k] − q[a, b, m, k] (a: real or imaginary part,
  b: sample, n: point of the first set, m: point of the second set, k: component), then from it the componentwise
  products d[0]·d[0] and d[0]·d[1], their Minkowski combinations 2·x₀ − (0 + Σₖ xₖ), the squared distance
  D = (real factor)² + (2 · imaginary factor)², the distance √(D + ε), and at last the least distance over m for each
  (b, n) and over n for each (b, m).

  Read at literal coordinates every layout step — inserting a unit axis, repeating along it, taking the real or the
  imaginary half, dropping a unit axis — lands on the entry one expects: the row-major arithmetic of the reshapes
  cancels because every coordinate is below its extent.  So the distance at (b, n, m) is √(`refD2` of the four 4-vectors
  + ε), and each table entry is the fold of `min` from +∞ of those distances over the reduced axis: `refPQ`, `refQP`.
-/
import proofs.«105863_j52544629899782_2_alg».proof.Defs
import proofs.«105863_j52544629899782_2_alg».proof.Proof.Gen.ReferenceIdeal.Read
import proofs.«105863_j52544629899782_2_alg».proof.Proof.Minkowski

noncomputable section

namespace Cert.ReferenceIdeal.RefValue

open Idealize.ShloMosaic Idealize.SL.Sem
open Cert.ReferenceIdeal Cert.ReferenceIdeal.Gen Cert.ReferenceIdeal.Read
open Idealize.ShloMosaic.ValueIdx
open Cert.Chamfer (vec reSq reIm refD2 refPQ refQP)

/-- The contents of an input buffer. -/
abbrev In := (⟨S2x64x512x4, .f32⟩ : BufTy).Contents (Elt Ideal)

/-! ## Where each layout operation reads -/

theorem idx_v11 (b : Fin 64) (n m : Fin 512) : idx_main_v11 (ix3 b n m) = ix4 b n m (0 : Fin 1) :=
  funext fun a => Fin.ext (by
    have hb := b.isLt; have hn := n.isLt; have hm := m.isLt
    match a with
    | ⟨0, _⟩ => show ((b.val * 512 + n.val) * 512 + m.val) / 262144 = b.val; omega
    | ⟨1, _⟩ => show ((b.val * 512 + n.val) * 512 + m.val) / 512 % 512 = n.val; omega
    | ⟨2, _⟩ => show ((b.val * 512 + n.val) * 512 + m.val) / 1 % 512 = m.val; omega
    | ⟨3, _⟩ => rfl)

theorem idx_v10 (b : Fin 64) (n m : Fin 512) : idx_main_v10 (ix4 b n m (0 : Fin 1)) = ix4 b n m (0 : Fin 4) :=
  funext fun a => Fin.ext (by match a with | ⟨0, _⟩ => rfl | ⟨1, _⟩ => rfl | ⟨2, _⟩ => rfl | ⟨3, _⟩ => rfl)

theorem idx_v14 (b : Fin 64) (n m : Fin 512) (k : Fin 4) : idx_main_v14 (ix3 b n m) k = ix4 b n m k :=
  funext fun a => Fin.ext (by match a with | ⟨0, _⟩ => rfl | ⟨1, _⟩ => rfl | ⟨2, _⟩ => rfl | ⟨3, _⟩ => rfl)

theorem idx_v6 (b : Fin 64) (n m : Fin 512) (k : Fin 4) : idx_main_v6 (ix4 b n m k) = ix5 (0 : Fin 1) b n m k :=
  funext fun a => Fin.ext (by
    have hb := b.isLt; have hn := n.isLt; have hm := m.isLt; have hk := k.isLt
    match a with
    | ⟨0, _⟩ => rfl
    | ⟨1, _⟩ => show (((b.val * 512 + n.val) * 512 + m.val) * 4 + k.val) / 1048576 % 64 = b.val; omega
    | ⟨2, _⟩ => show (((b.val * 512 + n.val) * 512 + m.val) * 4 + k.val) / 2048 % 512 = n.val; omega
    | ⟨3, _⟩ => show (((b.val * 512 + n.val) * 512 + m.val) * 4 + k.val) / 4 % 512 = m.val; omega
    | ⟨4, _⟩ => show (((b.val * 512 + n.val) * 512 + m.val) * 4 + k.val) % 4 = k.val; omega)

theorem idx_v5 (b : Fin 64) (n m : Fin 512) (k : Fin 4) : idx_main_v5 (ix5 (0 : Fin 1) b n m k) = ix5 (0 : Fin 2) b n m k :=
  funext fun a => Fin.ext (by match a with | ⟨0, _⟩ => rfl | ⟨1, _⟩ => rfl | ⟨2, _⟩ => rfl | ⟨3, _⟩ => rfl | ⟨4, _⟩ => rfl)

theorem idx_v18 (b : Fin 64) (n m : Fin 512) (k : Fin 4) : idx_main_v18 (ix5 (0 : Fin 1) b n m k) = ix5 (1 : Fin 2) b n m k :=
  funext fun a => Fin.ext (by match a with | ⟨0, _⟩ => rfl | ⟨1, _⟩ => rfl | ⟨2, _⟩ => rfl | ⟨3, _⟩ => rfl | ⟨4, _⟩ => rfl)

theorem idx_v2 (a : Fin 2) (b : Fin 64) (n m : Fin 512) (k : Fin 4) : idx_main_v2 (ix5 a b n m k) = ix5 a b n (0 : Fin 1) k :=
  funext fun c => Fin.ext (by match c with | ⟨0, _⟩ => rfl | ⟨1, _⟩ => rfl | ⟨2, _⟩ => rfl | ⟨3, _⟩ => rfl | ⟨4, _⟩ => rfl)

theorem idx_v0 (a : Fin 2) (b : Fin 64) (n : Fin 512) (k : Fin 4) : idx_main_v0 (ix5 a b n (0 : Fin 1) k) = ix4 a b n k :=
  funext fun c => Fin.ext (by match c with | ⟨0, _⟩ => rfl | ⟨1, _⟩ => rfl | ⟨2, _⟩ => rfl | ⟨3, _⟩ => rfl)

theorem idx_v3 (a : Fin 2) (b : Fin 64) (n m : Fin 512) (k : Fin 4) : idx_main_v3 (ix5 a b n m k) = ix5 a b (0 : Fin 1) m k :=
  funext fun c => Fin.ext (by match c with | ⟨0, _⟩ => rfl | ⟨1, _⟩ => rfl | ⟨2, _⟩ => rfl | ⟨3, _⟩ => rfl | ⟨4, _⟩ => rfl)

theorem idx_v1 (a : Fin 2) (b : Fin 64) (m : Fin 512) (k : Fin 4) : idx_main_v1 (ix5 a b (0 : Fin 1) m k) = ix4 a b m k :=
  funext fun c => Fin.ext (by match c with | ⟨0, _⟩ => rfl | ⟨1, _⟩ => rfl | ⟨2, _⟩ => rfl | ⟨3, _⟩ => rfl)

/-! The program repeats some of its slices and reshapes; each repetition reads where the first one does. -/

theorem idx_v8 (b : Fin 64) (n m : Fin 512) (k : Fin 4) : idx_main_v8 (ix4 b n m k) = ix5 (0 : Fin 1) b n m k := idx_v6 b n m k
theorem idx_v17 (b : Fin 64) (n m : Fin 512) (k : Fin 4) : idx_main_v17 (ix4 b n m k) = ix5 (0 : Fin 1) b n m k := idx_v6 b n m k
theorem idx_v19 (b : Fin 64) (n m : Fin 512) (k : Fin 4) : idx_main_v19 (ix4 b n m k) = ix5 (0 : Fin 1) b n m k := idx_v6 b n m k
theorem idx_v7 (b : Fin 64) (n m : Fin 512) (k : Fin 4) : idx_main_v7 (ix5 (0 : Fin 1) b n m k) = ix5 (0 : Fin 2) b n m k := idx_v5 b n m k
theorem idx_v16 (b : Fin 64) (n m : Fin 512) (k : Fin 4) : idx_main_v16 (ix5 (0 : Fin 1) b n m k) = ix5 (0 : Fin 2) b n m k := idx_v5 b n m k
theorem idx_v22 (b : Fin 64) (n m : Fin 512) : idx_main_v22 (ix3 b n m) = ix4 b n m (0 : Fin 1) := idx_v11 b n m
theorem idx_v21 (b : Fin 64) (n m : Fin 512) : idx_main_v21 (ix4 b n m (0 : Fin 1)) = ix4 b n m (0 : Fin 4) := idx_v10 b n m
theorem idx_v25 (b : Fin 64) (n m : Fin 512) (k : Fin 4) : idx_main_v25 (ix3 b n m) k = ix4 b n m k := idx_v14 b n m k

/-- An entry of the difference tensor. -/
theorem v4_at (P Q : In) (a : Fin 2) (b : Fin 64) (n m : Fin 512) (k : Fin 4) :
    val_main_v4 (F := Ideal) P Q (ix5 a b n m k) = P (ix4 a b n k) - Q (ix4 a b m k) := by
  rw [val_main_v4_apply, val_main_v2_apply, val_main_v3_apply, idx_v2, idx_v3, val_main_v0_apply, val_main_v1_apply,
    idx_v0, idx_v1]
  rfl

/-- Real part of the difference, squared componentwise. -/
theorem v9_at (P Q : In) (b : Fin 64) (n m : Fin 512) (k : Fin 4) :
    val_main_v9 (F := Ideal) P Q (ix4 b n m k) = reSq (vec P 0 b n) (vec Q 0 b m) k := by
  rw [val_main_v9_apply, val_main_v6_apply, val_main_v8_apply, idx_v6, idx_v8, val_main_v5_apply, val_main_v7_apply,
    idx_v5, idx_v7, v4_at]
  rfl

/-- Real part of the difference times its imaginary part, componentwise. -/
theorem v20_at (P Q : In) (b : Fin 64) (n m : Fin 512) (k : Fin 4) :
    val_main_v20 (F := Ideal) P Q (ix4 b n m k)
      = reIm (vec P 0 b n) (vec P 1 b n) (vec Q 0 b m) (vec Q 1 b m) k := by
  rw [val_main_v20_apply, val_main_v17_apply, val_main_v19_apply, idx_v17, idx_v19, val_main_v16_apply,
    val_main_v18_apply, idx_v16, idx_v18, v4_at, v4_at]
  rfl

/-- The real factor: twice the leading component's square less (0 + the sum of the four squares). -/
theorem v15_at (P Q : In) (b : Fin 64) (n m : Fin 512) :
    val_main_v15 (F := Ideal) P Q (ix3 b n m)
      = Ideal.ofBits .f32 0x40000000#32 * reSq (vec P 0 b n) (vec Q 0 b m) 0
        - (Ideal.ofBits .f32 0x00000000#32 + ∑ k : Fin 4, reSq (vec P 0 b n) (vec Q 0 b m) k) := by
  rw [val_main_v15_apply, val_main_v13_apply, val_main_v14_apply, val_main_v12_apply, val_main_v11_apply,
    idx_v11, val_main_v10_apply, idx_v10, v9_at]
  simp only [idx_v14, v9_at]
  rfl

/-- The imaginary factor: twice (twice the leading product less (0 + the sum of the four products)). -/
theorem v28_at (P Q : In) (b : Fin 64) (n m : Fin 512) :
    val_main_v28 (F := Ideal) P Q (ix3 b n m)
      = Ideal.ofBits .f32 0x40000000#32
        * (Ideal.ofBits .f32 0x40000000#32 * reIm (vec P 0 b n) (vec P 1 b n) (vec Q 0 b m) (vec Q 1 b m) 0
          - (Ideal.ofBits .f32 0x00000000#32 + ∑ k : Fin 4, reIm (vec P 0 b n) (vec P 1 b n) (vec Q 0 b m) (vec Q 1 b m) k)) := by
  rw [val_main_v28_apply, val_main_v27_apply, val_main_v26_apply, val_main_v24_apply, val_main_v25_apply,
    val_main_v23_apply, val_main_v22_apply, idx_v22, val_main_v21_apply, idx_v21, v20_at]
  simp only [idx_v25, v20_at]
  rfl

/-- The distance between point `n` of the first set and point `m` of the second, in sample `b`. -/
theorem v34_at (P Q : In) (b : Fin 64) (n m : Fin 512) :
    val_main_v34 (F := Ideal) P Q (ix3 b n m)
      = Ideal.sqrt (refD2 (vec P 0 b n) (vec P 1 b n) (vec Q 0 b m) (vec Q 1 b m) + Ideal.ofBits .f32 0x2B8CBCCC#32) := by
  rw [val_main_v34_apply, val_main_v33_apply, val_main_v31_apply, val_main_v29_apply, val_main_v30_apply,
    val_main_v32_apply, v15_at, v28_at]
  rfl

/-! ## The two minimum-reductions

A minimum over one axis is, at each entry of the result, the fold of `min` from the initial value over that axis's
coordinates: the entry's index with the coordinate put back on the dropped axis. -/

/-- Over the last axis: entry (b, n) folds over the entries (b, n, m). -/
theorem min_over_axis2 (x : S64x512x512.Idx → EReal) (init : S_.Idx → EReal) (b : Fin 64) (n : Fin 512) :
    Host.reduce (FloatOps.minimumf (F := Ideal) (φ := .f32)) x init reducesTo_S64x512x512_S64x512_d2 h_S_ (ix2 b n)
      = (Finset.univ : Finset (Fin 512)).fold min (init (Shape.Idx.first h_S_)) (fun m => x (ix3 b n m)) := by
  have h : S64x512x512.Reduces [2] S64x512 := by decide
  refine (Host.reduce_eq_fold_single _ x init reducesTo_S64x512x512_S64x512_d2 h h_S_ (ix2 b n)).trans ?_
  refine congrArg (Finset.fold _ _ · Finset.univ) (funext fun m => congrArg x ?_)
  exact funext fun c => Fin.ext (by match c with | ⟨0, _⟩ => rfl | ⟨1, _⟩ => rfl | ⟨2, _⟩ => rfl)

/-- Over the middle axis: entry (b, m) folds over the entries (b, n, m). -/
theorem min_over_axis1 (x : S64x512x512.Idx → EReal) (init : S_.Idx → EReal) (b : Fin 64) (m : Fin 512) :
    Host.reduce (FloatOps.minimumf (F := Ideal) (φ := .f32)) x init reducesTo_S64x512x512_S64x512_d1 h_S_ (ix2 b m)
      = (Finset.univ : Finset (Fin 512)).fold min (init (Shape.Idx.first h_S_)) (fun n => x (ix3 b n m)) := by
  have h : S64x512x512.Reduces [1] S64x512 := by decide
  refine (Host.reduce_eq_fold_single _ x init reducesTo_S64x512x512_S64x512_d1 h h_S_ (ix2 b m)).trans ?_
  refine congrArg (Finset.fold _ _ · Finset.univ) (funext fun n => congrArg x ?_)
  exact funext fun c => Fin.ext (by match c with | ⟨0, _⟩ => rfl | ⟨1, _⟩ => rfl | ⟨2, _⟩ => rfl)

/-- Entry (b, n) of the first table: the least distance from point `n` of the first set to the second set's points. -/
theorem v35_apply (P Q : (⟨S2x64x512x4, .f32⟩ : BufTy).Contents (Elt Ideal)) (b : Fin 64) (n : Fin 512) :
    Cert.ReferenceIdeal.Read.val_main_v35 (F := Ideal) P Q (ValueIdx.ix2 b n) = Cert.Chamfer.refPQ P Q b n := by
  unfold val_main_v35 refPQ
  rw [min_over_axis2]
  simp only [v34_at]
  rfl

/-- Entry (b, m) of the second table: the least distance from point `m` of the second set to the first set's points. -/
theorem v36_apply (P Q : (⟨S2x64x512x4, .f32⟩ : BufTy).Contents (Elt Ideal)) (b : Fin 64) (m : Fin 512) :
    Cert.ReferenceIdeal.Read.val_main_v36 (F := Ideal) P Q (ValueIdx.ix2 b m) = Cert.Chamfer.refQP P Q b m := by
  unfold val_main_v36 refQP
  rw [min_over_axis1]
  simp only [v34_at]
  rfl

end Cert.ReferenceIdeal.RefValue

end
-- ==== Proof.BodyDefs.lean ====
/-
  One sample's rows of the two tables, as functions of the four slabs the kernel loads for that sample: the real and
  imaginary parts of its 512 first-set points (`pRe`, `pIm`) and of its 512 second-set points (`qRe`, `qIm`), each a
  [1, 1, 4, 512] slab with the component on the third axis and the point on the last.  `rowPQ` is the row of least
  distances from each first-set point, `rowQP` from each second-set point; each is the body's arithmetic applied to
  the slabs, with nothing else of the sample's state in it.
-/
import proofs.«105863_j52544629899782_2_alg».proof.Proof.Gen.KernelIdeal.Skeleton

noncomputable section

namespace Cert.KernelIdeal.Body

open Idealize.ShloMosaic Cert.KernelIdeal Cert.KernelIdeal.Gen

variable {F : FTy → Type} [FloatOps F]

/-- The squared-distance matrix's operands from the slabs, reduced along the second set, then ε and the root. -/
def rowPQ (pRe pIm qRe qIm : Vec F S1x1x4x512 .f32) : FVec F S1x512 .f32 :=
  k0_pay3 (k0_pay11 k0_pay1 pRe qRe) (k0_pay12 k0_pay1 pRe qIm) (k0_pay13 k0_pay1 pIm qRe) (k0_pay14 k0_pay1 qRe)
    (k0_pay15 k0_pay1 qRe qIm) (k0_pay16 k0_pay1 pRe) (k0_pay17 k0_pay1 pRe pIm) (FloatOps.ofBits .f32 0x40000000#32)

/-- The same matrix reduced along the first set, then ε and the root. -/
def rowQP (pRe pIm qRe qIm : Vec F S1x1x4x512 .f32) : FVec F S1x512 .f32 :=
  k0_pay4 (k0_pay11 k0_pay1 pRe qRe) (k0_pay12 k0_pay1 pRe qIm) (k0_pay13 k0_pay1 pIm qRe) (k0_pay14 k0_pay1 qRe)
    (k0_pay15 k0_pay1 qRe qIm) (k0_pay16 k0_pay1 pRe) (k0_pay17 k0_pay1 pRe pIm) (FloatOps.ofBits .f32 0x40000000#32)

end Cert.KernelIdeal.Body

end
-- ==== Proof.KernelBlock.lean ====
/-
  One grid point of the kernel handles sixteen samples, one per trip of its loop.  Trip `k` loads sample `k`'s four
  slabs from the two input blocks and stores one row — row `k` — into each output block: the sample's row of least
  distances from the first set's points into the first block, from the second set's points into the second.  The
  sixteen rows tile each block, so each block, after the point, is ONE function of the two input blocks: at
  (r, n) it is sample r's row at n.
-/
import proofs.«105863_j52544629899782_2_alg».proof.Proof.Gen.KernelIdeal.Frame
import proofs.«105863_j52544629899782_2_alg».proof.Proof.BodyDefs
import Idealize.ShloMosaic.Lib.Pipeline.Value
import Idealize.ShloMosaic.Lib.ValueIdx

set_option maxRecDepth 16384

noncomputable section

namespace Cert.KernelIdeal.Block

open Idealize.ShloMosaic Idealize.ShloMosaic.TcCoe Idealize.ShloMosaic.Tactic Idealize.SL.Sem
open Cert.KernelIdeal Cert.KernelIdeal.Gen

variable {F : FTy → Type} [FloatOps F]

/-- The loop runs sixteen trips. -/
theorem trips_eq : k0_t1_loop.trips = 16 := by decide

/-- Sample `k`'s four slabs, cut from the two input blocks as read: parts 0 and 1 of row `k` of each. -/
abbrev slab0 (x : Vec F S2x16x4x512 .f32) (k : Fin k0_t1_loop.trips) : Vec F S1x1x4x512 .f32 :=
  View.ld x (Rect.unit (k0_off1 k) S1x1x4x512.size (k0_off1_inb k))
abbrev slab1 (x : Vec F S2x16x4x512 .f32) (k : Fin k0_t1_loop.trips) : Vec F S1x1x4x512 .f32 :=
  View.ld x (Rect.unit (k0_off2 k) S1x1x4x512.size (k0_off2_inb k))

/-- Trip `k` stores ONE piece into the first output: row `k`, the first row of its sample's slabs. -/
theorem trip_fst (𝒱 : Variants) (c : Dev nD) (bd : Option 𝒱.V) (i : grid0.Coords) (arg1 : Memref sig .tc .vmem S2x16x4x512 .f32) (harg1 : arg1.IsWhole) (arg2 : Memref sig .tc .vmem S2x16x4x512 .f32) (harg2 : arg2.IsWhole) (arg3 : Memref sig .tc .vmem S16x512 .f32) (harg3 : arg3.IsWhole) (arg4 : Memref sig .tc .vmem S16x512 .f32) (harg4 : arg4.IsWhole)
    (X1 : BufTy.Contents (Elt F) arg1.view.ty) (X2 : BufTy.Contents (Elt F) arg2.view.ty) (k : Fin k0_t1_loop.trips) :
    (trip_k0_t1 (F := F) 𝒱 c bd i arg1 harg1 arg2 harg2 arg3 harg3 arg4 harg4 X1 X2 k).1
      = [⟨Rect.unit (k0_off3 k) S1x512.size (k0_off3_inb k),
          Body.rowPQ (slab0 (arg1.view.read (Elt F) X1) k) (slab1 (arg1.view.read (Elt F) X1) k)
            (slab0 (arg2.view.read (Elt F) X2) k) (slab1 (arg2.view.read (Elt F) X2) k)⟩] := by
  unfold trip_k0_t1
  dsimp only
  sl_unfold_words
  rfl

/-- and ONE piece into the second: row `k`, the second row of its sample's slabs. -/
theorem trip_snd (𝒱 : Variants) (c : Dev nD) (bd : Option 𝒱.V) (i : grid0.Coords) (arg1 : Memref sig .tc .vmem S2x16x4x512 .f32) (harg1 : arg1.IsWhole) (arg2 : Memref sig .tc .vmem S2x16x4x512 .f32) (harg2 : arg2.IsWhole) (arg3 : Memref sig .tc .vmem S16x512 .f32) (harg3 : arg3.IsWhole) (arg4 : Memref sig .tc .vmem S16x512 .f32) (harg4 : arg4.IsWhole)
    (X1 : BufTy.Contents (Elt F) arg1.view.ty) (X2 : BufTy.Contents (Elt F) arg2.view.ty) (k : Fin k0_t1_loop.trips) :
    (trip_k0_t1 (F := F) 𝒱 c bd i arg1 harg1 arg2 harg2 arg3 harg3 arg4 harg4 X1 X2 k).2.1
      = [⟨Rect.unit (k0_off3 k) S1x512.size (k0_off3_inb k),
          Body.rowQP (slab0 (arg1.view.read (Elt F) X1) k) (slab1 (arg1.view.read (Elt F) X1) k)
            (slab0 (arg2.view.read (Elt F) X2) k) (slab1 (arg2.view.read (Elt F) X2) k)⟩] := by
  unfold trip_k0_t1
  dsimp only
  sl_unfold_words
  rfl

/-- The whole body's pieces are the loop's, trips 0 … 15, over the input blocks as the body finds them. -/
theorem run_fst (c : Dev nD) (i : grid0.Coords) (arg1 : Memref sig .tc .vmem S2x16x4x512 .f32) (harg1 : arg1.IsWhole) (arg2 : Memref sig .tc .vmem S2x16x4x512 .f32) (harg2 : arg2.IsWhole) (arg3 : Memref sig .tc .vmem S16x512 .f32) (harg3 : arg3.IsWhole) (arg4 : Memref sig .tc .vmem S16x512 .f32) (harg4 : arg4.IsWhole) (x0 x1 : Vec F S2x16x4x512 .f32) :
    (kernelRun0_A c i arg1 harg1 arg2 harg2 arg3 harg3 arg4 harg4 x0 x1).1
      = (pb_k0_t1 (F := F) Variants.none c none i arg1 harg1 arg2 harg2 arg3 harg3 arg4 harg4 (harg1.unread x0) (harg2.unread x1) k0_t1_loop.trips).1 := by
  unfold kernelRun0_A
  rfl
theorem run_snd (c : Dev nD) (i : grid0.Coords) (arg1 : Memref sig .tc .vmem S2x16x4x512 .f32) (harg1 : arg1.IsWhole) (arg2 : Memref sig .tc .vmem S2x16x4x512 .f32) (harg2 : arg2.IsWhole) (arg3 : Memref sig .tc .vmem S16x512 .f32) (harg3 : arg3.IsWhole) (arg4 : Memref sig .tc .vmem S16x512 .f32) (harg4 : arg4.IsWhole) (x0 x1 : Vec F S2x16x4x512 .f32) :
    (kernelRun0_A c i arg1 harg1 arg2 harg2 arg3 harg3 arg4 harg4 x0 x1).2.1
      = (pb_k0_t1 (F := F) Variants.none c none i arg1 harg1 arg2 harg2 arg3 harg3 arg4 harg4 (harg1.unread x0) (harg2.unread x1) k0_t1_loop.trips).2 := by
  unfold kernelRun0_A
  rfl

/-! ## Over the sixteen trips -/

/-- What holds of every trip's piece into the first output holds of every piece of the trips before `n`. -/
theorem pb_fst_forall (𝒱 : Variants) (c : Dev nD) (bd : Option 𝒱.V) (i : grid0.Coords) (arg1 : Memref sig .tc .vmem S2x16x4x512 .f32) (harg1 : arg1.IsWhole) (arg2 : Memref sig .tc .vmem S2x16x4x512 .f32) (harg2 : arg2.IsWhole) (arg3 : Memref sig .tc .vmem S16x512 .f32) (harg3 : arg3.IsWhole) (arg4 : Memref sig .tc .vmem S16x512 .f32) (harg4 : arg4.IsWhole)
    (X1 : BufTy.Contents (Elt F) arg1.view.ty) (X2 : BufTy.Contents (Elt F) arg2.view.ty)
    (Pr : View.Piece (Elt F) S16x512 .f32 → Prop)
    (h : ∀ k : Fin k0_t1_loop.trips, ∀ p ∈ (trip_k0_t1 (F := F) 𝒱 c bd i arg1 harg1 arg2 harg2 arg3 harg3 arg4 harg4 X1 X2 k).1, Pr p) :
    ∀ n : ℕ, ∀ p ∈ (pb_k0_t1 (F := F) 𝒱 c bd i arg1 harg1 arg2 harg2 arg3 harg3 arg4 harg4 X1 X2 n).1, Pr p := by
  intro n
  induction n with
  | zero => intro p hp; rw [pb_k0_t1.eq_1] at hp; exact absurd hp List.not_mem_nil
  | succ n ih =>
    intro p hp
    rw [pb_k0_t1.eq_2] at hp
    unfold pb_k0_t1Step at hp
    split at hp
    · rename_i hlt
      rcases List.mem_append.mp hp with h1 | h2
      · exact h ⟨n, hlt⟩ p h1
      · exact ih p h2
    · exact ih p hp

/-- The same for the second output. -/
theorem pb_snd_forall (𝒱 : Variants) (c : Dev nD) (bd : Option 𝒱.V) (i : grid0.Coords) (arg1 : Memref sig .tc .vmem S2x16x4x512 .f32) (harg1 : arg1.IsWhole) (arg2 : Memref sig .tc .vmem S2x16x4x512 .f32) (harg2 : arg2.IsWhole) (arg3 : Memref sig .tc .vmem S16x512 .f32) (harg3 : arg3.IsWhole) (arg4 : Memref sig .tc .vmem S16x512 .f32) (harg4 : arg4.IsWhole)
    (X1 : BufTy.Contents (Elt F) arg1.view.ty) (X2 : BufTy.Contents (Elt F) arg2.view.ty)
    (Pr : View.Piece (Elt F) S16x512 .f32 → Prop)
    (h : ∀ k : Fin k0_t1_loop.trips, ∀ p ∈ (trip_k0_t1 (F := F) 𝒱 c bd i arg1 harg1 arg2 harg2 arg3 harg3 arg4 harg4 X1 X2 k).2.1, Pr p) :
    ∀ n : ℕ, ∀ p ∈ (pb_k0_t1 (F := F) 𝒱 c bd i arg1 harg1 arg2 harg2 arg3 harg3 arg4 harg4 X1 X2 n).2, Pr p := by
  intro n
  induction n with
  | zero => intro p hp; rw [pb_k0_t1.eq_1] at hp; exact absurd hp List.not_mem_nil
  | succ n ih =>
    intro p hp
    rw [pb_k0_t1.eq_2] at hp
    unfold pb_k0_t1Step at hp
    split at hp
    · rename_i hlt
      rcases List.mem_append.mp hp with h1 | h2
      · exact h ⟨n, hlt⟩ p h1
      · exact ih p h2
    · exact ih p hp

/-! ## Each output block as one function of the input blocks -/

/-- The trip that handles row `r` of the blocks. -/
def tripOf (r : Fin 16) : Fin k0_t1_loop.trips := ⟨r.val, by rw [trips_eq]; exact r.isLt⟩

/-- Row `r` of the first output block at `n`: sample `r`'s first row there. -/
def blockPQ (x0 x1 : Vec F S2x16x4x512 .f32) (r : Fin 16) (n : Fin 512) : Elt F .f32 :=
  Body.rowPQ (slab0 x0 (tripOf r)) (slab1 x0 (tripOf r)) (slab0 x1 (tripOf r)) (slab1 x1 (tripOf r)) (ValueIdx.ix2 (0 : Fin 1) n)

/-- Row `r` of the second output block at `n`: sample `r`'s second row there. -/
def blockQP (x0 x1 : Vec F S2x16x4x512 .f32) (r : Fin 16) (n : Fin 512) : Elt F .f32 :=
  Body.rowQP (slab0 x0 (tripOf r)) (slab1 x0 (tripOf r)) (slab0 x1 (tripOf r)) (slab1 x1 (tripOf r)) (ValueIdx.ix2 (0 : Fin 1) n)

/-- Trip `k`'s rectangle is row `k`: an index inside it sits at row `k`, column its own. -/
theorem row_emb (k : Fin k0_t1_loop.trips) (x : (Rect.unit (s := S16x512) (k0_off3 k) S1x512.size (k0_off3_inb k)).shape.Idx) :
    (((Rect.unit (s := S16x512) (k0_off3 k) S1x512.size (k0_off3_inb k)).emb x 0).val = k.val) ∧ (((Rect.unit (s := S16x512) (k0_off3 k) S1x512.size (k0_off3_inb k)).emb x 1).val = (x 1).val) := by
  have hx0 : (x 0).val < 1 := (x 0).isLt
  have h0 : k0_off3 k 0 = k.val := (congrFun (k0_off3_eq k) 0).trans rfl
  have h1 : k0_off3 k 1 = 0 := (congrFun (k0_off3_eq k) 1).trans rfl
  constructor
  · show k0_off3 k 0 + 1 * (x 0).val = k.val; omega
  · show k0_off3 k 1 + 1 * (x 1).val = (x 1).val; omega

/-- An index of a one-row rectangle is (0, its column). -/
theorem row_idx (k : Fin k0_t1_loop.trips) (x : (Rect.unit (s := S16x512) (k0_off3 k) S1x512.size (k0_off3_inb k)).shape.Idx) :
    ValueIdx.ix2 (0 : Fin 1) (⟨(x 1).val, (x 1).isLt⟩ : Fin 512) = x := by
  funext a
  match a with
  | ⟨0, _⟩ => exact Fin.ext (by have : (x 0).val < 1 := (x 0).isLt; show 0 = (x 0).val; omega)
  | ⟨1, _⟩ => rfl

/-- The row trip `k` stores into the first output, read inside its rectangle, is `blockPQ` at that place. -/
theorem rowPQ_piece (x0 x1 : Vec F S2x16x4x512 .f32) (k : Fin k0_t1_loop.trips) (x : (Rect.unit (s := S16x512) (k0_off3 k) S1x512.size (k0_off3_inb k)).shape.Idx) :
    Body.rowPQ (slab0 x0 k) (slab1 x0 k) (slab0 x1 k) (slab1 x1 k) x
      = blockPQ x0 x1 ⟨((Rect.unit (s := S16x512) (k0_off3 k) S1x512.size (k0_off3_inb k)).emb x 0).val, ((Rect.unit (s := S16x512) (k0_off3 k) S1x512.size (k0_off3_inb k)).emb x 0).isLt⟩ ⟨((Rect.unit (s := S16x512) (k0_off3 k) S1x512.size (k0_off3_inb k)).emb x 1).val, ((Rect.unit (s := S16x512) (k0_off3 k) S1x512.size (k0_off3_inb k)).emb x 1).isLt⟩ := by
  obtain ⟨e0, e1⟩ := row_emb k x
  have hr : (⟨((Rect.unit (s := S16x512) (k0_off3 k) S1x512.size (k0_off3_inb k)).emb x 0).val, ((Rect.unit (s := S16x512) (k0_off3 k) S1x512.size (k0_off3_inb k)).emb x 0).isLt⟩ : Fin 16) = ⟨k.val, by rw [← trips_eq]; exact k.isLt⟩ := Fin.ext e0
  have hc : (⟨((Rect.unit (s := S16x512) (k0_off3 k) S1x512.size (k0_off3_inb k)).emb x 1).val, ((Rect.unit (s := S16x512) (k0_off3 k) S1x512.size (k0_off3_inb k)).emb x 1).isLt⟩ : Fin 512) = ⟨(x 1).val, (x 1).isLt⟩ := Fin.ext e1
  rw [hr, hc]
  unfold blockPQ
  have hk : tripOf ⟨k.val, by rw [← trips_eq]; exact k.isLt⟩ = k := Fin.ext rfl
  rw [hk, row_idx k x]

/-- The same for the second output. -/
theorem rowQP_piece (x0 x1 : Vec F S2x16x4x512 .f32) (k : Fin k0_t1_loop.trips) (x : (Rect.unit (s := S16x512) (k0_off3 k) S1x512.size (k0_off3_inb k)).shape.Idx) :
    Body.rowQP (slab0 x0 k) (slab1 x0 k) (slab0 x1 k) (slab1 x1 k) x
      = blockQP x0 x1 ⟨((Rect.unit (s := S16x512) (k0_off3 k) S1x512.size (k0_off3_inb k)).emb x 0).val, ((Rect.unit (s := S16x512) (k0_off3 k) S1x512.size (k0_off3_inb k)).emb x 0).isLt⟩ ⟨((Rect.unit (s := S16x512) (k0_off3 k) S1x512.size (k0_off3_inb k)).emb x 1).val, ((Rect.unit (s := S16x512) (k0_off3 k) S1x512.size (k0_off3_inb k)).emb x 1).isLt⟩ := by
  obtain ⟨e0, e1⟩ := row_emb k x
  have hr : (⟨((Rect.unit (s := S16x512) (k0_off3 k) S1x512.size (k0_off3_inb k)).emb x 0).val, ((Rect.unit (s := S16x512) (k0_off3 k) S1x512.size (k0_off3_inb k)).emb x 0).isLt⟩ : Fin 16) = ⟨k.val, by rw [← trips_eq]; exact k.isLt⟩ := Fin.ext e0
  have hc : (⟨((Rect.unit (s := S16x512) (k0_off3 k) S1x512.size (k0_off3_inb k)).emb x 1).val, ((Rect.unit (s := S16x512) (k0_off3 k) S1x512.size (k0_off3_inb k)).emb x 1).isLt⟩ : Fin 512) = ⟨(x 1).val, (x 1).isLt⟩ := Fin.ext e1
  rw [hr, hc]
  unfold blockQP
  have hk : tripOf ⟨k.val, by rw [← trips_eq]; exact k.isLt⟩ = k := Fin.ext rfl
  rw [hk, row_idx k x]

/-- After the body the first output block is `blockPQ` of the input blocks, whatever the staging memrefs. -/
theorem out2_apply (c : Dev nD) (i : grid0.Coords) (arg1 : Memref sig .tc .vmem S2x16x4x512 .f32) (harg1 : arg1.IsWhole) (arg2 : Memref sig .tc .vmem S2x16x4x512 .f32) (harg2 : arg2.IsWhole) (arg3 : Memref sig .tc .vmem S16x512 .f32) (harg3 : arg3.IsWhole) (arg4 : Memref sig .tc .vmem S16x512 .f32) (harg4 : arg4.IsWhole) (x0 x1 : Vec F S2x16x4x512 .f32) (y : S16x512.Idx) :
    out0_A_2 (F := F) c i arg1 harg1 arg2 harg2 arg3 harg3 arg4 harg4 x0 x1 y = blockPQ x0 x1 ⟨(y 0).val, (y 0).isLt⟩ ⟨(y 1).val, (y 1).isLt⟩ := by
  unfold out0_A_2
  rw [View.read_writes_eq_canon _ _ _ (cover0_A_2 c i arg1 harg1 arg2 harg2 arg3 harg3 arg4 harg4 x0 x1)]
  refine View.canon_apply_of_pieces (fun y : S16x512.Idx => blockPQ x0 x1 ⟨(y 0).val, (y 0).isLt⟩ ⟨(y 1).val, (y 1).isLt⟩) _ ?_ y
    (cover0_A_2 c i arg1 harg1 arg2 harg2 arg3 harg3 arg4 harg4 x0 x1 y)
  rw [run_fst]
  refine pb_fst_forall Variants.none c none i arg1 harg1 arg2 harg2 arg3 harg3 arg4 harg4 _ _
    (fun p => ∀ x : p.1.shape.Idx, p.2 x = blockPQ x0 x1 ⟨(p.1.emb x 0).val, (p.1.emb x 0).isLt⟩ ⟨(p.1.emb x 1).val, (p.1.emb x 1).isLt⟩) ?_ _
  intro k p hp x
  rw [trip_fst] at hp
  obtain rfl := List.mem_singleton.mp hp
  dsimp only
  rw [harg1.read_unread, harg2.read_unread]
  exact rowPQ_piece x0 x1 k x

/-- And the second is `blockQP`. -/
theorem out3_apply (c : Dev nD) (i : grid0.Coords) (arg1 : Memref sig .tc .vmem S2x16x4x512 .f32) (harg1 : arg1.IsWhole) (arg2 : Memref sig .tc .vmem S2x16x4x512 .f32) (harg2 : arg2.IsWhole) (arg3 : Memref sig .tc .vmem S16x512 .f32) (harg3 : arg3.IsWhole) (arg4 : Memref sig .tc .vmem S16x512 .f32) (harg4 : arg4.IsWhole) (x0 x1 : Vec F S2x16x4x512 .f32) (y : S16x512.Idx) :
    out0_A_3 (F := F) c i arg1 harg1 arg2 harg2 arg3 harg3 arg4 harg4 x0 x1 y = blockQP x0 x1 ⟨(y 0).val, (y 0).isLt⟩ ⟨(y 1).val, (y 1).isLt⟩ := by
  unfold out0_A_3
  rw [View.read_writes_eq_canon _ _ _ (cover0_A_3 c i arg1 harg1 arg2 harg2 arg3 harg3 arg4 harg4 x0 x1)]
  refine View.canon_apply_of_pieces (fun y : S16x512.Idx => blockQP x0 x1 ⟨(y 0).val, (y 0).isLt⟩ ⟨(y 1).val, (y 1).isLt⟩) _ ?_ y
    (cover0_A_3 c i arg1 harg1 arg2 harg2 arg3 harg3 arg4 harg4 x0 x1 y)
  rw [run_snd]
  refine pb_snd_forall Variants.none c none i arg1 harg1 arg2 harg2 arg3 harg3 arg4 harg4 _ _
    (fun p => ∀ x : p.1.shape.Idx, p.2 x = blockQP x0 x1 ⟨(p.1.emb x 0).val, (p.1.emb x 0).isLt⟩ ⟨(p.1.emb x 1).val, (p.1.emb x 1).isLt⟩) ?_ _
  intro k p hp x
  rw [trip_snd] at hp
  obtain rfl := List.mem_singleton.mp hp
  dsimp only
  rw [harg1.read_unread, harg2.read_unread]
  exact rowQP_piece x0 x1 k x

end Cert.KernelIdeal.Block

end
-- ==== Proof.KernelArrays.lean ====
/-
  From blocks to arrays.  The kernel is fed the two inputs with their last two axes exchanged — [part, sample, component,
  point] —, cut along the sample axis into four blocks of sixteen samples; grid point `t` handles samples 16t … 16t+15
  and writes rows 16t … 16t+15 of each [64, 512] table.  So each table, after the run, is ONE function of the two
  exchanged arrays: at (b, n) it is sample b's row at n, computed from sample b's four slabs.
-/
import proofs.«105863_j52544629899782_2_alg».proof.Proof.KernelBlock
import Idealize.ShloMosaic.Lib.Pipeline.Value
import Idealize.ShloMosaic.Lib.ValueIdx
import Idealize.ShloMosaic.Lib.StableHlo.Run

set_option maxRecDepth 16384

noncomputable section

namespace Cert.KernelIdeal.Arrays

open Idealize.ShloMosaic Idealize.ShloMosaic.TcCoe Idealize.ShloMosaic.Tactic Idealize.SL.Sem
open Cert.KernelIdeal Cert.KernelIdeal.Gen Cert.KernelIdeal.Block
open Idealize.ShloMosaic.Pipeline (Dat)

variable {F : FTy → Type} [FloatOps F]
variable (m : (ℓ : Loc nD τ sig) → Buf (Elt F) ℓ) (ρ : Dev nD → PrngReg)

/-! ## The host lines before the region -/

/-- The region finds the first operand's array at the first input with its last two axes exchanged. -/
theorem V_main_v0 (c : Dev nD) :
    (V m c main_v0 : S2x64x4x512.Idx → Elt F .f32)
      = transpose S2x64x4x512 [0, 1, 3, 2] (m ((c : Thread nD τ).loc main_arg0)) transposes_S2x64x512x4_S2x64x4x512_0_1_3_2 := by
  show StableHlo.after hostOps0 (fun b => m (c, b)) (Proc.devRef .tc main_v0) = _
  after_results

/-- And the second operand's at the second input likewise. -/
theorem V_main_v1 (c : Dev nD) :
    (V m c main_v1 : S2x64x4x512.Idx → Elt F .f32)
      = transpose S2x64x4x512 [0, 1, 3, 2] (m ((c : Thread nD τ).loc main_arg1)) transposes_S2x64x512x4_S2x64x4x512_0_1_3_2 := by
  show StableHlo.after hostOps0 (fun b => m (c, b)) (Proc.devRef .tc main_v1) = _
  after_results

/-! ## The index maps, decided over the four points -/

theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 4) = 0 ∧ win0_1.index t (1 : Fin 4) = t.val ∧ win0_1.index t (2 : Fin 4) = 0 ∧ win0_1.index t (3 : Fin 4) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The tables as functions of the exchanged arrays -/

/-- Sample `b`'s slab of part `a`, cut from an exchanged array: components × points. -/
def sampleSlab (A : S2x64x4x512.Idx → Elt F .f32) (a : Fin 2) (b : Fin 64) : Vec F S1x1x4x512 .f32 :=
  fun j => A (ValueIdx.ix4 a b (⟨(j 2).val, (j 2).isLt⟩ : Fin 4) (⟨(j 3).val, (j 3).isLt⟩ : Fin 512))

/-- The first table: at (b, n), sample `b`'s row of least distances from its first-set points, at `n`. -/
def tablePQ (A0 A1 : S2x64x4x512.Idx → Elt F .f32) : S64x512.Idx → Elt F .f32 := fun i =>
  Body.rowPQ (sampleSlab A0 0 ⟨(i 0).val, (i 0).isLt⟩) (sampleSlab A0 1 ⟨(i 0).val, (i 0).isLt⟩)
    (sampleSlab A1 0 ⟨(i 0).val, (i 0).isLt⟩) (sampleSlab A1 1 ⟨(i 0).val, (i 0).isLt⟩)
    (ValueIdx.ix2 (0 : Fin 1) (⟨(i 1).val, (i 1).isLt⟩ : Fin 512))

/-- The second table: at (b, n), sample `b`'s row of least distances from its second-set points, at `n`. -/
def tableQP (A0 A1 : S2x64x4x512.Idx → Elt F .f32) : S64x512.Idx → Elt F .f32 := fun i =>
  Body.rowQP (sampleSlab A0 0 ⟨(i 0).val, (i 0).isLt⟩) (sampleSlab A0 1 ⟨(i 0).val, (i 0).isLt⟩)
    (sampleSlab A1 0 ⟨(i 0).val, (i 0).isLt⟩) (sampleSlab A1 1 ⟨(i 0).val, (i 0).isLt⟩)
    (ValueIdx.ix2 (0 : Fin 1) (⟨(i 1).val, (i 1).isLt⟩ : Fin 512))

/-! ## The slabs a trip loads are its sample's -/

/-- Trip `r` of point `t` loads, from the first operand's block, the two slabs of sample `16 t + r`. -/
theorem slabs_w0 (c : Dev nD) (t : Fin cfg0.N) (r : Fin 16) (b : Fin 64) (hb : b.val = 16 * t.val + r.val) :
    slab0 (iblk m c 0 t) (tripOf r) = sampleSlab (V m c main_v0) 0 b
    ∧ slab1 (iblk m c 0 t) (tripOf r) = sampleSlab (V m c main_v0) 1 b := by
  obtain ⟨e0, e1, e2, e3, -⟩ := idx_facts t
  have o10 : k0_off1 (tripOf r) 0 = 0 := (congrFun (k0_off1_eq (tripOf r)) 0).trans rfl
  have o11 : k0_off1 (tripOf r) 1 = r.val := (congrFun (k0_off1_eq (tripOf r)) 1).trans rfl
  have o12 : k0_off1 (tripOf r) 2 = 0 := (congrFun (k0_off1_eq (tripOf r)) 2).trans rfl
  have o13 : k0_off1 (tripOf r) 3 = 0 := (congrFun (k0_off1_eq (tripOf r)) 3).trans rfl
  have o20 : k0_off2 (tripOf r) 0 = 1 := (congrFun (k0_off2_eq (tripOf r)) 0).trans rfl
  have o21 : k0_off2 (tripOf r) 1 = r.val := (congrFun (k0_off2_eq (tripOf r)) 1).trans rfl
  have o22 : k0_off2 (tripOf r) 2 = 0 := (congrFun (k0_off2_eq (tripOf r)) 2).trans rfl
  have o23 : k0_off2 (tripOf r) 3 = 0 := (congrFun (k0_off2_eq (tripOf r)) 3).trans rfl
  constructor
  · funext j
    have hj0 : (j 0).val < 1 := (j 0).isLt
    have hj1 : (j 1).val < 1 := (j 1).isLt
    show V m c main_v0 (((cfg0.win 0).blk t).view.emb ((Rect.unit (s := S2x16x4x512) (k0_off1 (tripOf r)) S1x1x4x512.size (k0_off1_inb (tripOf r))).idx j)) = V m c main_v0 _
    refine congrArg (V m c main_v0) (funext fun a => Fin.ext ?_)
    match a with
    | ⟨0, _⟩ => show win0_0.index t (0 : Fin 4) * 2 + 1 * (k0_off1 (tripOf r) 0 + 1 * (j 0).val) = 0; omega
    | ⟨1, _⟩ => show win0_0.index t (1 : Fin 4) * 16 + 1 * (k0_off1 (tripOf r) 1 + 1 * (j 1).val) = b.val; omega
    | ⟨2, _⟩ => show win0_0.index t (2 : Fin 4) * 4 + 1 * (k0_off1 (tripOf r) 2 + 1 * (j 2).val) = (j 2).val; omega
    | ⟨3, _⟩ => show win0_0.index t (3 : Fin 4) * 512 + 1 * (k0_off1 (tripOf r) 3 + 1 * (j 3).val) = (j 3).val; omega
  · funext j
    have hj0 : (j 0).val < 1 := (j 0).isLt
    have hj1 : (j 1).val < 1 := (j 1).isLt
    show V m c main_v0 (((cfg0.win 0).blk t).view.emb ((Rect.unit (s := S2x16x4x512) (k0_off2 (tripOf r)) S1x1x4x512.size (k0_off2_inb (tripOf r))).idx j)) = V m c main_v0 _
    refine congrArg (V m c main_v0) (funext fun a => Fin.ext ?_)
    match a with
    | ⟨0, _⟩ => show win0_0.index t (0 : Fin 4) * 2 + 1 * (k0_off2 (tripOf r) 0 + 1 * (j 0).val) = 1; omega
    | ⟨1, _⟩ => show win0_0.index t (1 : Fin 4) * 16 + 1 * (k0_off2 (tripOf r) 1 + 1 * (j 1).val) = b.val; omega
    | ⟨2, _⟩ => show win0_0.index t (2 : Fin 4) * 4 + 1 * (k0_off2 (tripOf r) 2 + 1 * (j 2).val) = (j 2).val; omega
    | ⟨3, _⟩ => show win0_0.index t (3 : Fin 4) * 512 + 1 * (k0_off2 (tripOf r) 3 + 1 * (j 3).val) = (j 3).val; omega

/-- And from the second operand's block, the two slabs of the same sample. -/
theorem slabs_w1 (c : Dev nD) (t : Fin cfg0.N) (r : Fin 16) (b : Fin 64) (hb : b.val = 16 * t.val + r.val) :
    slab0 (iblk m c 1 t) (tripOf r) = sampleSlab (V m c main_v1) 0 b
    ∧ slab1 (iblk m c 1 t) (tripOf r) = sampleSlab (V m c main_v1) 1 b := by
  obtain ⟨-, -, -, -, e0, e1, e2, e3, -⟩ := idx_facts t
  have o10 : k0_off1 (tripOf r) 0 = 0 := (congrFun (k0_off1_eq (tripOf r)) 0).trans rfl
  have o11 : k0_off1 (tripOf r) 1 = r.val := (congrFun (k0_off1_eq (tripOf r)) 1).trans rfl
  have o12 : k0_off1 (tripOf r) 2 = 0 := (congrFun (k0_off1_eq (tripOf r)) 2).trans rfl
  have o13 : k0_off1 (tripOf r) 3 = 0 := (congrFun (k0_off1_eq (tripOf r)) 3).trans rfl
  have o20 : k0_off2 (tripOf r) 0 = 1 := (congrFun (k0_off2_eq (tripOf r)) 0).trans rfl
  have o21 : k0_off2 (tripOf r) 1 = r.val := (congrFun (k0_off2_eq (tripOf r)) 1).trans rfl
  have o22 : k0_off2 (tripOf r) 2 = 0 := (congrFun (k0_off2_eq (tripOf r)) 2).trans rfl
  have o23 : k0_off2 (tripOf r) 3 = 0 := (congrFun (k0_off2_eq (tripOf r)) 3).trans rfl
  constructor
  · funext j
    have hj0 : (j 0).val < 1 := (j 0).isLt
    have hj1 : (j 1).val < 1 := (j 1).isLt
    show V m c main_v1 (((cfg0.win 1).blk t).view.emb ((Rect.unit (s := S2x16x4x512) (k0_off1 (tripOf r)) S1x1x4x512.size (k0_off1_inb (tripOf r))).idx j)) = V m c main_v1 _
    refine congrArg (V m c main_v1) (funext fun a => Fin.ext ?_)
    match a with
    | ⟨0, _⟩ => show win0_1.index t (0 : Fin 4) * 2 + 1 * (k0_off1 (tripOf r) 0 + 1 * (j 0).val) = 0; omega
    | ⟨1, _⟩ => show win0_1.index t (1 : Fin 4) * 16 + 1 * (k0_off1 (tripOf r) 1 + 1 * (j 1).val) = b.val; omega
    | ⟨2, _⟩ => show win0_1.index t (2 : Fin 4) * 4 + 1 * (k0_off1 (tripOf r) 2 + 1 * (j 2).val) = (j 2).val; omega
    | ⟨3, _⟩ => show win0_1.index t (3 : Fin 4) * 512 + 1 * (k0_off1 (tripOf r) 3 + 1 * (j 3).val) = (j 3).val; omega
  · funext j
    have hj0 : (j 0).val < 1 := (j 0).isLt
    have hj1 : (j 1).val < 1 := (j 1).isLt
    show V m c main_v1 (((cfg0.win 1).blk t).view.emb ((Rect.unit (s := S2x16x4x512) (k0_off2 (tripOf r)) S1x1x4x512.size (k0_off2_inb (tripOf r))).idx j)) = V m c main_v1 _
    refine congrArg (V m c main_v1) (funext fun a => Fin.ext ?_)
    match a with
    | ⟨0, _⟩ => show win0_1.index t (0 : Fin 4) * 2 + 1 * (k0_off2 (tripOf r) 0 + 1 * (j 0).val) = 1; omega
    | ⟨1, _⟩ => show win0_1.index t (1 : Fin 4) * 16 + 1 * (k0_off2 (tripOf r) 1 + 1 * (j 1).val) = b.val; omega
    | ⟨2, _⟩ => show win0_1.index t (2 : Fin 4) * 4 + 1 * (k0_off2 (tripOf r) 2 + 1 * (j 2).val) = (j 2).val; omega
    | ⟨3, _⟩ => show win0_1.index t (3 : Fin 4) * 512 + 1 * (k0_off2 (tripOf r) 3 + 1 * (j 3).val) = (j 3).val; omega

/-! ## What each point writes back -/

/-- What point `t` writes back into table one is block `t` of `tablePQ` of the two exchanged arrays. -/
theorem flushed2_eq (c : Dev nD) (t : Fin cfg0.N) :
    (dats m 0 c).flushed 2 t = ((cfg0.win 2).blk t).view.read (Elt F) (tablePQ (V m c main_v0) (V m c main_v1)) := by
  show (cfg0.win 2).cut (grid0.coords t) ((dats m 0 c).after 2 t) = _
  rw [after0_2]
  unfold outsAt0
  funext y
  show out0_A_2 c (grid0.coords t) (ms0_0 t) (hs0_0 t) (ms0_1 t) (hs0_1 t) (ms0_2 t) (hs0_2 t) (ms0_3 t) (hs0_3 t) (iblk m c 0 t) (iblk m c 1 t) y
      = tablePQ (V m c main_v0) (V m c main_v1) (((cfg0.win 2).blk t).view.emb y)
  rw [out2_apply]
  obtain ⟨-, -, -, -, -, -, -, -, f20, f21, f30, f31⟩ := idx_facts t
  have hy0 : (y 0).val < 16 := (y 0).isLt
  have hrow : ((((cfg0.win 2).blk t).view.emb y) 0).val = 16 * t.val + (y 0).val := by
    show win0_2.index t (0 : Fin 2) * 16 + 1 * (y 0).val = _; omega
  have hcol : ((((cfg0.win 2).blk t).view.emb y) 1).val = (y 1).val := by
    show win0_2.index t (1 : Fin 2) * 512 + 1 * (y 1).val = _; omega
  obtain ⟨s00, s01⟩ := slabs_w0 m c t ⟨(y 0).val, hy0⟩ ⟨_, ((((cfg0.win 2).blk t).view.emb y) 0).isLt⟩ hrow
  obtain ⟨s10, s11⟩ := slabs_w1 m c t ⟨(y 0).val, hy0⟩ ⟨_, ((((cfg0.win 2).blk t).view.emb y) 0).isLt⟩ hrow
  have hc : (⟨((((cfg0.win 2).blk t).view.emb y) 1).val, ((((cfg0.win 2).blk t).view.emb y) 1).isLt⟩ : Fin 512) = ⟨(y 1).val, (y 1).isLt⟩ := Fin.ext hcol
  unfold blockPQ tablePQ
  rw [s00, s01, s10, s11, hc]

/-- What point `t` writes back into table two is block `t` of `tableQP` of the two exchanged arrays. -/
theorem flushed3_eq (c : Dev nD) (t : Fin cfg0.N) :
    (dats m 0 c).flushed 3 t = ((cfg0.win 3).blk t).view.read (Elt F) (tableQP (V m c main_v0) (V m c main_v1)) := by
  show (cfg0.win 3).cut (grid0.coords t) ((dats m 0 c).after 3 t) = _
  rw [after0_3]
  unfold outsAt0
  funext y
  show out0_A_3 c (grid0.coords t) (ms0_0 t) (hs0_0 t) (ms0_1 t) (hs0_1 t) (ms0_2 t) (hs0_2 t) (ms0_3 t) (hs0_3 t) (iblk m c 0 t) (iblk m c 1 t) y
      = tableQP (V m c main_v0) (V m c main_v1) (((cfg0.win 3).blk t).view.emb y)
  rw [out3_apply]
  obtain ⟨-, -, -, -, -, -, -, -, f20, f21, f30, f31⟩ := idx_facts t
  have hy0 : (y 0).val < 16 := (y 0).isLt
  have hrow : ((((cfg0.win 3).blk t).view.emb y) 0).val = 16 * t.val + (y 0).val := by
    show win0_3.index t (0 : Fin 2) * 16 + 1 * (y 0).val = _; omega
  have hcol : ((((cfg0.win 3).blk t).view.emb y) 1).val = (y 1).val := by
    show win0_3.index t (1 : Fin 2) * 512 + 1 * (y 1).val = _; omega
  obtain ⟨s00, s01⟩ := slabs_w0 m c t ⟨(y 0).val, hy0⟩ ⟨_, ((((cfg0.win 3).blk t).view.emb y) 0).isLt⟩ hrow
  obtain ⟨s10, s11⟩ := slabs_w1 m c t ⟨(y 0).val, hy0⟩ ⟨_, ((((cfg0.win 3).blk t).view.emb y) 0).isLt⟩ hrow
  have hc : (⟨((((cfg0.win 3).blk t).view.emb y) 1).val, ((((cfg0.win 3).blk t).view.emb y) 1).isLt⟩ : Fin 512) = ⟨(y 1).val, (y 1).isLt⟩ := Fin.ext hcol
  unfold blockQP tableQP
  rw [s00, s01, s10, s11, hc]

/-! ## The blocks cover the tables -/

/-- An index of table one is in point `t`'s block iff each coordinate is in the block's range on its axis. -/
theorem mem_blk2 (t : Fin cfg0.N) (i : S64x512.Idx) :
    i ∈ ((cfg0.win 2).blk t).view.set ↔ ∀ a : Fin 2, win0_2.index t a * S16x512.size a ≤ (i a).val ∧ (i a).val < win0_2.index t a * S16x512.size a + S16x512.size a := by
  show i ∈ ((View.whole main_v2_0).slice (win0_2.rect t)).set ↔ _
  rw [View.set_slice_whole, Rect.mem_set_unit]
  exact Iff.rfl

/-- Row `b` lies in the block of point `b / 16`: the four blocks cover the table. -/
theorem cover2 (i : S64x512.Idx) : ∃ t : Fin cfg0.N, (cfg0.win 2).flush t = true ∧ i ∈ ((cfg0.win 2).blk t).view.set := by
  have hi0 : (i 0).val < 64 := (i 0).isLt
  have hi1 : (i 1).val < 512 := (i 1).isLt
  have hN : cfg0.N = 4 := N_0
  have hlt : (i 0).val / 16 < cfg0.N := by rw [hN]; omega
  obtain ⟨-, -, -, -, -, -, -, -, f20, f21, f30, f31⟩ := idx_facts ⟨(i 0).val / 16, hlt⟩
  refine ⟨⟨(i 0).val / 16, hlt⟩, flush0_2 _, (mem_blk2 _ i).mpr fun a => ?_⟩
  match a with
  | ⟨0, _⟩ =>
    show win0_2.index ⟨(i 0).val / 16, hlt⟩ (0 : Fin 2) * 16 ≤ (i 0).val ∧ (i 0).val < win0_2.index ⟨(i 0).val / 16, hlt⟩ (0 : Fin 2) * 16 + 16
    have hv : (⟨(i 0).val / 16, hlt⟩ : Fin cfg0.N).val = (i 0).val / 16 := rfl
    omega
  | ⟨1, _⟩ =>
    show win0_2.index ⟨(i 0).val / 16, hlt⟩ (1 : Fin 2) * 512 ≤ (i 1).val ∧ (i 1).val < win0_2.index ⟨(i 0).val / 16, hlt⟩ (1 : Fin 2) * 512 + 512
    omega

/-- An index of table two is in point `t`'s block iff each coordinate is in the block's range on its axis. -/
theorem mem_blk3 (t : Fin cfg0.N) (i : S64x512.Idx) :
    i ∈ ((cfg0.win 3).blk t).view.set ↔ ∀ a : Fin 2, win0_3.index t a * S16x512.size a ≤ (i a).val ∧ (i a).val < win0_3.index t a * S16x512.size a + S16x512.size a := by
  show i ∈ ((View.whole main_v2_1).slice (win0_3.rect t)).set ↔ _
  rw [View.set_slice_whole, Rect.mem_set_unit]
  exact Iff.rfl

/-- Row `b` lies in the block of point `b / 16`: the four blocks cover the table. -/
theorem cover3 (i : S64x512.Idx) : ∃ t : Fin cfg0.N, (cfg0.win 3).flush t = true ∧ i ∈ ((cfg0.win 3).blk t).view.set := by
  have hi0 : (i 0).val < 64 := (i 0).isLt
  have hi1 : (i 1).val < 512 := (i 1).isLt
  have hN : cfg0.N = 4 := N_0
  have hlt : (i 0).val / 16 < cfg0.N := by rw [hN]; omega
  obtain ⟨-, -, -, -, -, -, -, -, f20, f21, f30, f31⟩ := idx_facts ⟨(i 0).val / 16, hlt⟩
  refine ⟨⟨(i 0).val / 16, hlt⟩, flush0_3 _, (mem_blk3 _ i).mpr fun a => ?_⟩
  match a with
  | ⟨0, _⟩ =>
    show win0_3.index ⟨(i 0).val / 16, hlt⟩ (0 : Fin 2) * 16 ≤ (i 0).val ∧ (i 0).val < win0_3.index ⟨(i 0).val / 16, hlt⟩ (0 : Fin 2) * 16 + 16
    have hv : (⟨(i 0).val / 16, hlt⟩ : Fin cfg0.N).val = (i 0).val / 16 := rfl
    omega
  | ⟨1, _⟩ =>
    show win0_3.index ⟨(i 0).val / 16, hlt⟩ (1 : Fin 2) * 512 ≤ (i 1).val ∧ (i 1).val < win0_3.index ⟨(i 0).val / 16, hlt⟩ (1 : Fin 2) * 512 + 512
    omega

/-! ## The two tables after the run -/

/-- After the run the first table's array is `tablePQ` of the two exchanged arrays. -/
theorem final2 (c : Dev nD) : (dats m 0 c).arrAt 2 cfg0.N = tablePQ (V m c main_v0) (V m c main_v1) :=
  (dats m 0 c).arrAt_eq_of_cover 2 _ (fun t _ => flushed2_eq m c t) cover2

/-- And the second table's is `tableQP`. -/
theorem final3 (c : Dev nD) : (dats m 0 c).arrAt 3 cfg0.N = tableQP (V m c main_v0) (V m c main_v1) :=
  (dats m 0 c).arrAt_eq_of_cover 3 _ (fun t _ => flushed3_eq m c t) cover3

/-! ## The host lines after the region, and the run -/

/-- What follows the kernel: each table summed over both axes onto a zero, and the two sums added. -/
def total (T1 T2 : FVec F S64x512 .f32) : FVec F S_ .f32 :=
  addf (Host.reduceAdd T1 (constant S_ .f32 0x00000000#32) reducesTo_S64x512_S_d0_1 h_S_)
    (Host.reduceAdd T2 (constant S_ .f32 0x00000000#32) reducesTo_S64x512_S_d0_1 h_S_)

/-- The result buffer after the lines that follow the region: `total` of the two tables as the region left them. -/
theorem tail_eq (c : Dev nD) :
    Pipeline.afterTail₀ cfgs (dats m) 0 (V0 m) [hostOps1] c main_v5
      = total ((dats m 0 c).arrAt 2 cfg0.N) ((dats m 0 c).arrAt 3 cfg0.N) := by
  unfold Pipeline.afterTail₀
  show StableHlo.after hostOps1 _ (Proc.devRef .tc main_v5) = _
  after_results
  have e2 : Pipeline.withArrays (cfgs 0).spec c (V0 m c) (fun w => (dats m 0 c).arrAt w (cfgs 0).N) (Proc.devRef .tc main_v2_0)
      = (dats m 0 c).arrAt 2 cfg0.N := Pipeline.withArrays_arr spec0 launch0.win.arr_inj c (V0 m c) _ 2
  have e3 : Pipeline.withArrays (cfgs 0).spec c (V0 m c) (fun w => (dats m 0 c).arrAt w (cfgs 0).N) (Proc.devRef .tc main_v2_1)
      = (dats m 0 c).arrAt 3 cfg0.N := Pipeline.withArrays_arr spec0 launch0.win.arr_inj c (V0 m c) _ 3
  unfold total
  rw [e2, e3]

/-- THE RUN: every weakly fair execution ends with the result at `total` of the two tables — each a function of the
    inputs with their last two axes exchanged — and the inputs as they were. -/
theorem run_tables : θ_run defs (onTc (τ := τ) (main (F := F))) ⟨m, fun _ => 0, ρ⟩ fun r => ∀ c : Dev nD,
      r.2.mem ((c : Thread nD τ).loc main_v5)
          = total (tablePQ (V m c main_v0) (V m c main_v1)) (tableQP (V m c main_v0) (V m c main_v1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v5 (Pipeline.mem_restRefs_of main_v5 (by decide) (by decide))).trans
        ((tail_eq m c).trans (by rw [final2, final3])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Arrays

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibColBroadcast.lean ====
/-
  A column broadcast across the columns, read at an index.

  An `a × 1` column broadcast (as a vector broadcast) to `a × b` reads, at `(p, q)`, the column at `p`: the row
  coordinate is kept (the operand's axis 0 has the result's extent), the column coordinate is dropped (the operand's axis 1
  is a unit axis). For any element type and any extents; the companion of the row forms.
-/
import Idealize.ShloMosaic.Lib.Pipeline.Value
import Idealize.ShloMosaic.Lib.ValueIdx

noncomputable section

namespace Cert.Lib.Cols

open Idealize.ShloMosaic Idealize.ShloMosaic.ValueIdx

variable {a b : Nat}

/-- An `a × 1` column broadcast across `b` columns reads, at `(p, q)`, the column at `p`. -/
theorem bcastCol_apply {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- A length-`a` vector reshaped to an `a × 1` column reads, at `(p, 0)`, the vector at `p`. -/
theorem col_apply {α : Type} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- A length-`a` vector broadcast along dimension 0 to an `a × 1` column reads, at `(p, 0)`, the vector at `p`. -/
theorem dimVec_apply {α : Type} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) :=
  broadcastInDim_apply _ h v (ix2 p (0 : Fin 1)) (ix1 p) fun ax => by
    match ax with
    | ⟨0, _⟩ =>
      show p.val = if a = 1 then 0 else p.val
      split
      · have := p.isLt; omega
      · rfl

end Cert.Lib.Cols

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.Body.lean ====
/-
  The body's arithmetic for one sample, read entry by entry.

  The four slabs hold, for each of the sample's 512 first-set and 512 second-set points, the real and imaginary
  4-vectors, component on the third axis and point on the last.  Weighting the components by (+1, −1, −1, −1) and
  contracting the component axis turns each product of slabs into Minkowski forms of points: three 512 × 512 tables
  ⟨p, q⟩ of cross forms and four length-512 vectors of forms of a point with itself or with its own other part.  The
  table of squared distances combines them entry by entry exactly as `Cert.Chamfer.kerD2` arranges them; the two rows
  are its least entries along either axis, plus ε, under one square root.
-/
import proofs.«105863_j52544629899782_2_alg».proof.Proof.BodyDefs
import proofs.«105863_j52544629899782_2_alg».proof.Proof.Minkowski
import proofs.«105863_j52544629899782_2_alg».proof.Proof.LibRowBroadcasts
import proofs.«105863_j52544629899782_2_alg».proof.Proof.LibColBroadcast
import proofs.«105863_j52544629899782_2_alg».proof.Proof.LibMergeRows
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Body

open Idealize.ShloMosaic Idealize.ShloMosaic.ValueIdx Cert.KernelIdeal Cert.KernelIdeal.Gen

/-! ## The weights, the slabs as 4 × 512 matrices, and the weighted slabs -/

/-- The weight column reads +1 at component 0 and −1 at the others. -/
theorem sign_apply (k : Fin 4) : k0_pay1 (F := Ideal) (ix2 k (0 : Fin 1)) = Cert.Chamfer.sgn k := by
  unfold k0_pay1 Cert.Chamfer.sgn
  show Scalar.select (IntOp.cmpi .eq (iota .tc S4x1 32 [0] iota_S4x1_d0_w32 (ix2 k (0 : Fin 1))) 0#32)
      (Ideal.ofBits .f32 0x3F800000#32) (Ideal.ofBits .f32 0xBF800000#32) = _
  rw [iota_single_apply]
  show Scalar.select (IntOp.cmpi .eq (BitVec.ofNat 32 k.val) 0#32) _ _ = _
  fin_cases k <;> rfl

/-- A slab with its two unit axes dropped reads, at (component, point), the slab there. -/
theorem slab_apply (v : Vec Ideal S1x1x4x512 .f32) (k : Fin 4) (n : Fin 512) :
    shapeCast S4x512 v shapeCasts_S1x1x4x512_S4x512 (ix2 k n) = v (ix4 (0 : Fin 1) (0 : Fin 1) k n) :=
  shapeCast_apply v shapeCasts_S1x1x4x512_S4x512 _ _ (by
    rw [Shape.rowMajor_val_four, Shape.rowMajor_val_two]
    show ((0 * 1 + 0) * 4 + k.val) * 512 + n.val = k.val * 512 + n.val
    omega)

/-- A slab times the weight column, at (component, point): the entry times the component's weight. -/
theorem weighted_apply (v : Vec Ideal S1x1x4x512 .f32) (k : Fin 4) (n : Fin 512) :
    k0_pay9 (F := Ideal) k0_pay1 v (ix2 k n) = v (ix4 (0 : Fin 1) (0 : Fin 1) k n) * Cert.Chamfer.sgn k := by
  unfold k0_pay9 k0_pay5
  show shapeCast S4x512 v shapeCasts_S1x1x4x512_S4x512 (ix2 k n)
      * broadcastTo S4x512 (k0_pay1 (F := Ideal)) broadcasts_S4x1_S4x512 (ix2 k n) = _
  rw [slab_apply, Cert.Lib.Cols.bcastCol_apply (k0_pay1 (F := Ideal)) broadcasts_S4x1_S4x512 k n, sign_apply]

/-! ## Contracting the component axis -/

/-- The product of two 4 × 512 matrices contracting their component axes, into the zero table, read at (n, m): the
    sum over the four components of the products of column n of the first and column m of the second. -/
theorem gram_apply (L R : FVec Ideal S4x512 .f32) (n m : Fin 512) :
    matmul dot_S4x512_S4x512_S512x512_0_0_1_1_n_n (some .fp32) L R (constant S512x512 .f32 0x00000000#32) (ix2 n m)
      = ∑ k : Fin 4, L (ix2 k n) * R (ix2 k m) := by
  show FloatOps.matmul dot_S4x512_S4x512_S512x512_0_0_1_1_n_n (some .fp32) L R (constant S512x512 .f32 0x00000000#32) (ix2 n m) = _
  rw [Ideal.matmul_constant_zero_apply,
    ← Equiv.sum_comp (contrEquiv1 dot_S4x512_S4x512_S512x512_0_0_1_1_n_n 4 rfl rfl).symm]
  refine Finset.sum_congr rfl fun c _ => ?_
  have c2 := contrEquiv1_symm_val dot_S4x512_S4x512_S512x512_0_0_1_1_n_n 4 rfl rfl c
  have l2 : dot_S4x512_S4x512_S512x512_0_0_1_1_n_n.lhsIdx (ix2 n m)
      ((contrEquiv1 dot_S4x512_S4x512_S512x512_0_0_1_1_n_n 4 rfl rfl).symm c) = ix2 c n := by
    funext ax; apply Fin.ext
    match ax with
    | ⟨0, _⟩ => simp [DotDims.lhsIdx, dot_S4x512_S4x512_S512x512_0_0_1_1_n_n]; exact c2
    | ⟨1, _⟩ => simp [DotDims.lhsIdx, dot_S4x512_S4x512_S512x512_0_0_1_1_n_n]; rfl
  have r2 : dot_S4x512_S4x512_S512x512_0_0_1_1_n_n.rhsIdx (ix2 n m)
      ((contrEquiv1 dot_S4x512_S4x512_S512x512_0_0_1_1_n_n 4 rfl rfl).symm c) = ix2 c m := by
    funext ax; apply Fin.ext
    match ax with
    | ⟨0, _⟩ => simp [DotDims.rhsIdx, dot_S4x512_S4x512_S512x512_0_0_1_1_n_n]; exact c2
    | ⟨1, _⟩ => simp [DotDims.rhsIdx, dot_S4x512_S4x512_S512x512_0_0_1_1_n_n]; rfl
  rw [l2, r2]

/-- The sum of a 4 × 512 matrix over its component axis, read at point n: the sum of column n. -/
theorem colSum_apply (X : FVec Ideal S4x512 .f32) (hφ : FKind.Formats .f32)
    (hacc : (0x00000000#32 : BitVec 32) = 0x00000000#32) (n : Fin 512) :
    multiReduction .add [0] S512 X 0x00000000#32 reduces_S4x512_S512 hφ hacc (ix1 n) = ∑ k : Fin 4, X (ix2 k n) := by
  refine (Ideal.multiReduction_add_single X 0x00000000#32 reduces_S4x512_S512 hφ hacc (ix1 n)).trans ?_
  show ∑ k : Fin 4, X (reduces_S4x512_S512.lift (ix1 n) k) = _
  refine Finset.sum_congr rfl fun k _ => congrArg X ?_
  funext ax; apply Fin.ext
  match ax with
  | ⟨0, _⟩ => rfl
  | ⟨1, _⟩ => rfl

/-! ## Forms of points -/

/-- The weighted first matrix against a second slab, contracted: at (n, m), the form of point n of the first with
    point m of the second. -/
theorem crossForm_apply (p q : Vec Ideal S1x1x4x512 .f32) (n m : Fin 512) :
    matmul dot_S4x512_S4x512_S512x512_0_0_1_1_n_n (some .fp32) (k0_pay9 (F := Ideal) k0_pay1 p)
        (shapeCast S4x512 q shapeCasts_S1x1x4x512_S4x512 : FVec Ideal S4x512 .f32) (constant S512x512 .f32 0x00000000#32) (ix2 n m)
      = Cert.Chamfer.form (fun k => p (ix4 (0 : Fin 1) (0 : Fin 1) k n)) (fun k => q (ix4 (0 : Fin 1) (0 : Fin 1) k m)) := by
  refine (gram_apply _ _ n m).trans ?_
  unfold Cert.Chamfer.form
  refine Finset.sum_congr rfl fun k _ => ?_
  rw [weighted_apply, slab_apply]

/-- The weighted first matrix times a second slab entry by entry, summed over the components: at point n, the form of
    point n of the first with point n of the second. -/
theorem selfForm_apply (p r : Vec Ideal S1x1x4x512 .f32) (hφ : FKind.Formats .f32)
    (hacc : (0x00000000#32 : BitVec 32) = 0x00000000#32) (n : Fin 512) :
    multiReduction .add [0] S512
        (mulf (k0_pay9 (F := Ideal) k0_pay1 p) (shapeCast S4x512 r shapeCasts_S1x1x4x512_S4x512))
        0x00000000#32 reduces_S4x512_S512 hφ hacc (ix1 n)
      = Cert.Chamfer.form (fun k => p (ix4 (0 : Fin 1) (0 : Fin 1) k n)) (fun k => r (ix4 (0 : Fin 1) (0 : Fin 1) k n)) := by
  refine (colSum_apply _ hφ hacc n).trans ?_
  unfold Cert.Chamfer.form
  refine Finset.sum_congr rfl fun k _ => ?_
  show k0_pay9 (F := Ideal) k0_pay1 p (ix2 k n) * shapeCast S4x512 r shapeCasts_S1x1x4x512_S4x512 (ix2 k n) = _
  rw [weighted_apply, slab_apply]

/-- The same vector of forms laid out as a 1 × 512 row, read at (0, m). -/
theorem rowForm_apply (p r : Vec Ideal S1x1x4x512 .f32) (hφ : FKind.Formats .f32)
    (hacc : (0x00000000#32 : BitVec 32) = 0x00000000#32) (m : Fin 512) :
    shapeCast S1x512 (multiReduction .add [0] S512
        (mulf (k0_pay9 (F := Ideal) k0_pay1 p) (shapeCast S4x512 r shapeCasts_S1x1x4x512_S4x512))
        0x00000000#32 reduces_S4x512_S512 hφ hacc) shapeCasts_S512_S1x512 (ix2 (0 : Fin 1) m)
      = Cert.Chamfer.form (fun k => p (ix4 (0 : Fin 1) (0 : Fin 1) k m)) (fun k => r (ix4 (0 : Fin 1) (0 : Fin 1) k m)) :=
  (Cert.Lib.MergeRows.row_apply _ shapeCasts_S512_S1x512 m).trans (selfForm_apply p r hφ hacc m)

/-- And turned into a 512 × 1 column, read at (n, 0). -/
theorem colForm_apply (p r : Vec Ideal S1x1x4x512 .f32) (hφ : FKind.Formats .f32)
    (hacc : (0x00000000#32 : BitVec 32) = 0x00000000#32) (n : Fin 512) :
    transpose S512x1 [1, 0] (shapeCast S1x512 (multiReduction .add [0] S512
        (mulf (k0_pay9 (F := Ideal) k0_pay1 p) (shapeCast S4x512 r shapeCasts_S1x1x4x512_S4x512))
        0x00000000#32 reduces_S4x512_S512 hφ hacc) shapeCasts_S512_S1x512) transposes_S1x512_p1_0_S512x1 (ix2 n (0 : Fin 1))
      = Cert.Chamfer.form (fun k => p (ix4 (0 : Fin 1) (0 : Fin 1) k n)) (fun k => r (ix4 (0 : Fin 1) (0 : Fin 1) k n)) :=
  (Cert.Lib.MergeRows.transpose_apply _ transposes_S1x512_p1_0_S512x1 n (0 : Fin 1)).trans (rowForm_apply p r hφ hacc n)

/-! ## The table of squared distances -/

/-- The table's entry (n, m) from its seven operands read where the broadcasts put them: the column vectors at row n,
    the row vectors at column m, the three tables at (n, m). -/
theorem d2_entry (A B C : FVec Ideal S512x512 .f32) (qq cq : FVec Ideal S1x512 .f32) (pp cp : FVec Ideal S512x1 .f32)
    (two : Ideal .f32) (n m : Fin 512) :
    k0_pay2 A B C qq cq pp cp two (ix2 n m)
      = ((pp (ix2 n (0 : Fin 1)) - two * A (ix2 n m)) + qq (ix2 (0 : Fin 1) m))
          * ((pp (ix2 n (0 : Fin 1)) - two * A (ix2 n m)) + qq (ix2 (0 : Fin 1) m))
        + Ideal.ofBits .f32 0x40800000#32
          * (((cp (ix2 n (0 : Fin 1)) + cq (ix2 (0 : Fin 1) m)) - (B (ix2 n m) + C (ix2 n m)))
            * ((cp (ix2 n (0 : Fin 1)) + cq (ix2 (0 : Fin 1) m)) - (B (ix2 n m) + C (ix2 n m)))) := by
  rw [← Cert.Lib.Cols.bcastCol_apply pp broadcasts_S512x1_S512x512 n m,
    ← Cert.Lib.Rows.bcastRow_apply qq broadcasts_S1x512_S512x512 n m,
    ← Cert.Lib.Cols.bcastCol_apply cp broadcasts_S512x1_S512x512 n m,
    ← Cert.Lib.Rows.bcastRow_apply cq broadcasts_S1x512_S512x512 n m]
  rfl

/-- The squared-distance table of a sample's slabs. -/
abbrev d2Table (pRe pIm qRe qIm : Vec Ideal S1x1x4x512 .f32) : FVec Ideal S512x512 .f32 :=
  k0_pay2 (k0_pay11 k0_pay1 pRe qRe) (k0_pay12 k0_pay1 pRe qIm) (k0_pay13 k0_pay1 pIm qRe) (k0_pay14 k0_pay1 qRe)
    (k0_pay15 k0_pay1 qRe qIm) (k0_pay16 k0_pay1 pRe) (k0_pay17 k0_pay1 pRe pIm) (FloatOps.ofBits .f32 0x40000000#32)

/-- Its entry (n, m) is the squared distance, in the expanded arrangement, between point n of the first set and point
    m of the second. -/
theorem d2_apply (pRe pIm qRe qIm : Vec Ideal S1x1x4x512 .f32) (n m : Fin 512) :
    d2Table pRe pIm qRe qIm (ix2 n m)
      = Cert.Chamfer.kerD2 (fun k => pRe (ix4 (0 : Fin 1) (0 : Fin 1) k n)) (fun k => pIm (ix4 (0 : Fin 1) (0 : Fin 1) k n))
          (fun k => qRe (ix4 (0 : Fin 1) (0 : Fin 1) k m)) (fun k => qIm (ix4 (0 : Fin 1) (0 : Fin 1) k m)) := by
  refine (d2_entry _ _ _ _ _ _ _ _ n m).trans ?_
  have hA : k0_pay11 (F := Ideal) k0_pay1 pRe qRe (ix2 n m) = _ := crossForm_apply pRe qRe n m
  have hB : k0_pay12 (F := Ideal) k0_pay1 pRe qIm (ix2 n m) = _ := crossForm_apply pRe qIm n m
  have hC : k0_pay13 (F := Ideal) k0_pay1 pIm qRe (ix2 n m) = _ := crossForm_apply pIm qRe n m
  have hqq : k0_pay14 (F := Ideal) k0_pay1 qRe (ix2 (0 : Fin 1) m) = _ := rowForm_apply qRe qRe (.inl rfl) rfl m
  have hcq : k0_pay15 (F := Ideal) k0_pay1 qRe qIm (ix2 (0 : Fin 1) m) = _ := rowForm_apply qRe qIm (.inl rfl) rfl m
  have hpp : k0_pay16 (F := Ideal) k0_pay1 pRe (ix2 n (0 : Fin 1)) = _ := colForm_apply pRe pRe (.inl rfl) rfl n
  have hcp : k0_pay17 (F := Ideal) k0_pay1 pRe pIm (ix2 n (0 : Fin 1)) = _ := colForm_apply pRe pIm (.inl rfl) rfl n
  rw [hA, hB, hC, hqq, hcq, hpp, hcp]
  rfl

/-! ## The least entry along either axis -/

/-- The least of row n of a 512 × 512 table, from +∞. -/
theorem rowMin_apply (D : FVec Ideal S512x512 .f32) (hφ : FKind.Formats .f32)
    (hacc : (0x7F800000#32 : BitVec 32) = 0x7F800000#32) (n : Fin 512) :
    multiReduction .minimumf [1] S512 D 0x7F800000#32 reduces_S512x512_S512 hφ hacc (ix1 n)
      = (Finset.univ : Finset (Fin 512)).fold min (Ideal.ofBits .f32 0x7F800000#32) (fun m => D (ix2 n m)) := by
  refine (multiReduction_minimumf_eq_fold D 0x7F800000#32 reduces_S512x512_S512 hφ hacc (ix1 n)).trans ?_
  refine (reduces_S512x512_S512.fold_filter_drop_single FloatOps.minimumf (FloatOps.ofBits .f32 0x7F800000#32) D (ix1 n)).trans ?_
  show (Finset.univ : Finset (Fin 512)).fold min (Ideal.ofBits .f32 0x7F800000#32) (D ∘ reduces_S512x512_S512.lift (ix1 n)) = _
  refine congrArg (Finset.fold min _ · Finset.univ) (funext fun m => congrArg D ?_)
  funext ax; apply Fin.ext
  match ax with
  | ⟨0, _⟩ => rfl
  | ⟨1, _⟩ => rfl

/-- The least of column m of a 512 × 512 table, from +∞. -/
theorem colMin_apply (D : FVec Ideal S512x512 .f32) (hφ : FKind.Formats .f32)
    (hacc : (0x7F800000#32 : BitVec 32) = 0x7F800000#32) (m : Fin 512) :
    multiReduction .minimumf [0] S512 D 0x7F800000#32 reduces_S512x512_S512_2 hφ hacc (ix1 m)
      = (Finset.univ : Finset (Fin 512)).fold min (Ideal.ofBits .f32 0x7F800000#32) (fun n => D (ix2 n m)) := by
  refine (multiReduction_minimumf_eq_fold D 0x7F800000#32 reduces_S512x512_S512_2 hφ hacc (ix1 m)).trans ?_
  refine (reduces_S512x512_S512_2.fold_filter_drop_single FloatOps.minimumf (FloatOps.ofBits .f32 0x7F800000#32) D (ix1 m)).trans ?_
  show (Finset.univ : Finset (Fin 512)).fold min (Ideal.ofBits .f32 0x7F800000#32) (D ∘ reduces_S512x512_S512_2.lift (ix1 m)) = _
  refine congrArg (Finset.fold min _ · Finset.univ) (funext fun n => congrArg D ?_)
  funext ax; apply Fin.ext
  match ax with
  | ⟨0, _⟩ => rfl
  | ⟨1, _⟩ => rfl

/-! ## The two rows -/

/-- A float word read as a scalar, at the extended reals, is the extended real it encodes. -/
theorem scalar_ofBits (b : BitVec 32) : Scalar.ofBits (F := Ideal) .f32 b = Ideal.ofBits .f32 b := rfl

/-- Adding a splat to a length-512 vector and taking square roots, read at n. -/
theorem rootAdd_apply (X : FVec Ideal S512 .f32) (e : Ideal .f32) (n : Fin 512) :
    sqrt (addf X (broadcast S512 e)) (ix1 n) = Ideal.sqrt (X (ix1 n) + e) := rfl

/-- The first stored row over any seven operands: at (0, n), the least of row n of their table, plus ε, under the
    square root. -/
theorem minAlongSecond_apply (A B C : FVec Ideal S512x512 .f32) (qq cq : FVec Ideal S1x512 .f32)
    (pp cp : FVec Ideal S512x1 .f32) (two : Ideal .f32) (n : Fin 512) :
    k0_pay3 A B C qq cq pp cp two (ix2 (0 : Fin 1) n)
      = Ideal.sqrt ((Finset.univ : Finset (Fin 512)).fold min (Ideal.ofBits .f32 0x7F800000#32)
          (fun m => k0_pay2 A B C qq cq pp cp two (ix2 n m)) + Ideal.ofBits .f32 0x2B8CBCCC#32) := by
  unfold k0_pay3
  refine (Cert.Lib.MergeRows.row_apply _ shapeCasts_S512_S1x512 n).trans ?_
  refine (rootAdd_apply _ _ n).trans ?_
  exact congrArg₂ (fun x y => Ideal.sqrt (x + y))
    (rowMin_apply (k0_pay2 A B C qq cq pp cp two) (.inl rfl) rfl n) (scalar_ofBits _)

/-- The second stored row over any seven operands: at (0, m), the least of column m of their table, plus ε, under the
    square root. -/
theorem minAlongFirst_apply (A B C : FVec Ideal S512x512 .f32) (qq cq : FVec Ideal S1x512 .f32)
    (pp cp : FVec Ideal S512x1 .f32) (two : Ideal .f32) (m : Fin 512) :
    k0_pay4 A B C qq cq pp cp two (ix2 (0 : Fin 1) m)
      = Ideal.sqrt ((Finset.univ : Finset (Fin 512)).fold min (Ideal.ofBits .f32 0x7F800000#32)
          (fun n => k0_pay2 A B C qq cq pp cp two (ix2 n m)) + Ideal.ofBits .f32 0x2B8CBCCC#32) := by
  unfold k0_pay4
  refine (Cert.Lib.MergeRows.row_apply _ shapeCasts_S512_S1x512 m).trans ?_
  refine (rootAdd_apply _ _ m).trans ?_
  exact congrArg₂ (fun x y => Ideal.sqrt (x + y))
    (colMin_apply (k0_pay2 A B C qq cq pp cp two) (.inl rfl) rfl m) (scalar_ofBits _)

/-- Entry n of the first row: the least squared distance from point n of the first set to the second set's points,
    plus ε, under the square root. -/
theorem rowPQ_apply (pRe pIm qRe qIm : Vec Ideal S1x1x4x512 .f32) (n : Fin 512) :
    rowPQ (F := Ideal) pRe pIm qRe qIm (ix2 (0 : Fin 1) n)
      = Ideal.sqrt ((Finset.univ : Finset (Fin 512)).fold min (Ideal.ofBits .f32 0x7F800000#32)
          (fun m => Cert.Chamfer.kerD2 (fun k => pRe (ix4 (0 : Fin 1) (0 : Fin 1) k n)) (fun k => pIm (ix4 (0 : Fin 1) (0 : Fin 1) k n))
                                       (fun k => qRe (ix4 (0 : Fin 1) (0 : Fin 1) k m)) (fun k => qIm (ix4 (0 : Fin 1) (0 : Fin 1) k m)))
        + Ideal.ofBits .f32 0x2B8CBCCC#32) := by
  unfold rowPQ
  refine (minAlongSecond_apply _ _ _ _ _ _ _ _ n).trans ?_
  refine congrArg (fun x => Ideal.sqrt (x + Ideal.ofBits .f32 0x2B8CBCCC#32)) ?_
  exact congrArg (Finset.fold min _ · Finset.univ) (funext fun m => d2_apply pRe pIm qRe qIm n m)

/-- Entry m of the second row: the least squared distance from point m of the second set to the first set's points,
    plus ε, under the square root. -/
theorem rowQP_apply (pRe pIm qRe qIm : Vec Ideal S1x1x4x512 .f32) (m : Fin 512) :
    rowQP (F := Ideal) pRe pIm qRe qIm (ix2 (0 : Fin 1) m)
      = Ideal.sqrt ((Finset.univ : Finset (Fin 512)).fold min (Ideal.ofBits .f32 0x7F800000#32)
          (fun n => Cert.Chamfer.kerD2 (fun k => pRe (ix4 (0 : Fin 1) (0 : Fin 1) k n)) (fun k => pIm (ix4 (0 : Fin 1) (0 : Fin 1) k n))
                                       (fun k => qRe (ix4 (0 : Fin 1) (0 : Fin 1) k m)) (fun k => qIm (ix4 (0 : Fin 1) (0 : Fin 1) k m)))
        + Ideal.ofBits .f32 0x2B8CBCCC#32) := by
  unfold rowQP
  refine (minAlongFirst_apply _ _ _ _ _ _ _ _ m).trans ?_
  refine congrArg (fun x => Ideal.sqrt (x + Ideal.ofBits .f32 0x2B8CBCCC#32)) ?_
  exact congrArg (Finset.fold min _ · Finset.univ) (funext fun n => d2_apply pRe pIm qRe qIm n m)

end Cert.KernelIdeal.Body

end
-- ==== Proof.KernelTables.lean ====
/-
  The kernel's two tables at the ideal values, entry by entry.  Exchanging the last two axes of an input and then
  cutting sample `b`'s slab of part `a` gives, at component `k` and point `n`, the input's entry (a, b, n, k): the
  4-vector of point `n`.  So sample `b`'s rows, read through the body's arithmetic, are the least-then-root tables
  `kerPQ` and `kerQP` of the two inputs themselves.
-/
import proofs.«105863_j52544629899782_2_alg».proof.Proof.KernelArrays
import proofs.«105863_j52544629899782_2_alg».proof.Proof.Body
import proofs.«105863_j52544629899782_2_alg».proof.Proof.Minkowski

set_option maxRecDepth 16384

noncomputable section

namespace Cert.KernelIdeal.Tables

open Idealize.ShloMosaic Idealize.ShloMosaic.TcCoe Idealize.SL.Sem
open Cert.KernelIdeal Cert.KernelIdeal.Gen Cert.KernelIdeal.Arrays

variable (m : (ℓ : Loc nD τ sig) → Buf (Elt Ideal) ℓ)

/-- The first exchanged array at (a, b, k, n) is the first input at (a, b, n, k). -/
theorem v0_apply (c : Dev nD) (a : Fin 2) (b : Fin 64) (k : Fin 4) (n : Fin 512) :
    (V m c main_v0 : S2x64x4x512.Idx → EReal) (ValueIdx.ix4 a b k n)
      = m ((c : Thread nD τ).loc main_arg0) (ValueIdx.ix4 a b n k) :=
  (congrFun (V_main_v0 m c) _).trans
    (transpose_apply [0, 1, 3, 2] _ transposes_S2x64x512x4_S2x64x4x512_0_1_3_2 (ValueIdx.ix4 a b k n) (ValueIdx.ix4 a b n k)
      (fun d => match d with | ⟨0, _⟩ => rfl | ⟨1, _⟩ => rfl | ⟨2, _⟩ => rfl | ⟨3, _⟩ => rfl))

/-- And the second at the second input likewise. -/
theorem v1_apply (c : Dev nD) (a : Fin 2) (b : Fin 64) (k : Fin 4) (n : Fin 512) :
    (V m c main_v1 : S2x64x4x512.Idx → EReal) (ValueIdx.ix4 a b k n)
      = m ((c : Thread nD τ).loc main_arg1) (ValueIdx.ix4 a b n k) :=
  (congrFun (V_main_v1 m c) _).trans
    (transpose_apply [0, 1, 3, 2] _ transposes_S2x64x512x4_S2x64x4x512_0_1_3_2 (ValueIdx.ix4 a b k n) (ValueIdx.ix4 a b n k)
      (fun d => match d with | ⟨0, _⟩ => rfl | ⟨1, _⟩ => rfl | ⟨2, _⟩ => rfl | ⟨3, _⟩ => rfl))

/-- Sample `b`'s slab of part `a` of the first exchanged array, at component `k` and point `n`, is point `n`'s 4-vector. -/
theorem slab_v0 (c : Dev nD) (a : Fin 2) (b : Fin 64) (n : Fin 512) :
    (fun k : Fin 4 => sampleSlab (V m c main_v0) a b (ValueIdx.ix4 (0 : Fin 1) (0 : Fin 1) k n))
      = Cert.Chamfer.vec (m ((c : Thread nD τ).loc main_arg0)) a b n :=
  funext fun k => v0_apply m c a b k n
theorem slab_v1 (c : Dev nD) (a : Fin 2) (b : Fin 64) (n : Fin 512) :
    (fun k : Fin 4 => sampleSlab (V m c main_v1) a b (ValueIdx.ix4 (0 : Fin 1) (0 : Fin 1) k n))
      = Cert.Chamfer.vec (m ((c : Thread nD τ).loc main_arg1)) a b n :=
  funext fun k => v1_apply m c a b k n

/-- The first table at (b, n) is `kerPQ` of the two inputs there. -/
theorem tablePQ_apply (c : Dev nD) (b : Fin 64) (n : Fin 512) :
    tablePQ (V m c main_v0) (V m c main_v1) (ValueIdx.ix2 b n)
      = Cert.Chamfer.kerPQ (m ((c : Thread nD τ).loc main_arg0)) (m ((c : Thread nD τ).loc main_arg1)) b n := by
  show Body.rowPQ (sampleSlab (V m c main_v0) 0 b) (sampleSlab (V m c main_v0) 1 b) (sampleSlab (V m c main_v1) 0 b)
      (sampleSlab (V m c main_v1) 1 b) (ValueIdx.ix2 (0 : Fin 1) n) = _
  rw [Body.rowPQ_apply]
  simp only [slab_v0, slab_v1]
  rfl

/-- The second table at (b, n) is `kerQP` of the two inputs there. -/
theorem tableQP_apply (c : Dev nD) (b : Fin 64) (n : Fin 512) :
    tableQP (V m c main_v0) (V m c main_v1) (ValueIdx.ix2 b n)
      = Cert.Chamfer.kerQP (m ((c : Thread nD τ).loc main_arg0)) (m ((c : Thread nD τ).loc main_arg1)) b n := by
  show Body.rowQP (sampleSlab (V m c main_v0) 0 b) (sampleSlab (V m c main_v0) 1 b) (sampleSlab (V m c main_v1) 0 b)
      (sampleSlab (V m c main_v1) 1 b) (ValueIdx.ix2 (0 : Fin 1) n) = _
  rw [Body.rowQP_apply]
  simp only [slab_v0, slab_v1]
  rfl

end Cert.KernelIdeal.Tables

end
-- ==== Proof.lean ====
/-
  Two programs compute one number from two batches of 64 samples, each sample two sets of 512 points, each point a
  complex 4-vector: for every point of one set the least Minkowski distance √(⟨d,d⟩-form + ε) to the other set's
  points, both ways round, all summed.

  The reference subtracts every pair of points, forms D = ⟨d0,d0⟩² + (2⟨d0,d1⟩)² from the differences, takes √(D + ε)
  of every pair and then the least along each axis.  The kernel never forms a difference: with the inputs' last two
  axes exchanged it expands D bilinearly into Minkowski forms of the points themselves (three contractions over the
  four components and four component sums per sample), takes the least D along each axis first, and one square root
  per point afterwards; it does so sixteen samples per grid point, one sample per trip of a loop, each trip storing
  one row of each [64, 512] table.  Both programs then sum each table and add the two sums.

  The proof follows that description.  `Proof/Minkowski.lean`: the two arrangements of D agree on real entries
  (bilinearity needs finiteness, which the precondition gives: `Proof/Finite.lean`), and x ↦ √(x + ε), being monotone
  on the extended reals, commutes with the least of a non-empty family; so the tables agree entry by entry.
  `Proof/RefRead.lean` reads the reference's two tables at an index.  `Proof/Body.lean` reads one trip's arithmetic at
  an index; `Proof/KernelBlock.lean` collects the sixteen trips' rows into each output block as one function of the
  input blocks; `Proof/KernelArrays.lean` collects the four blocks into each table as one function of the exchanged
  inputs and carries the tables through the final sums; `Proof/KernelTables.lean` undoes the exchange.  The final
  sums are the same function of the tables in both programs and are never opened.
-/
import proofs.«105863_j52544629899782_2_alg».proof.Defs
import proofs.«105863_j52544629899782_2_alg».proof.Proof.Minkowski
import proofs.«105863_j52544629899782_2_alg».proof.Proof.Finite
import proofs.«105863_j52544629899782_2_alg».proof.Proof.RefRead
import proofs.«105863_j52544629899782_2_alg».proof.Proof.KernelTables
import proofs.«105863_j52544629899782_2_alg».proof.Proof.Gen.Kernel
import proofs.«105863_j52544629899782_2_alg».proof.Proof.Gen.Kernel.Frame
import proofs.«105863_j52544629899782_2_alg».proof.Proof.Gen.KernelIdeal
import proofs.«105863_j52544629899782_2_alg».proof.Proof.Gen.KernelIdeal.Frame
import proofs.«105863_j52544629899782_2_alg».proof.Proof.Gen.ReferenceIdeal
import proofs.«105863_j52544629899782_2_alg».proof.Proof.Gen.ReferenceIdeal.Run
import proofs.«105863_j52544629899782_2_alg».proof.Proof.Gen.ReferenceIdeal.Read
import proofs.«105863_j52544629899782_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The reference's result is the final sums of its two tables: the same function of two tables the kernel's host
    lines apply. -/
theorem ref_total (P Q : (⟨Cert.ReferenceIdeal.S2x64x512x4, .f32⟩ : BufTy).Contents (Elt Ideal)) :
    Cert.ReferenceIdeal.Read.val_main_v39 (F := Ideal) P Q
      = Cert.KernelIdeal.Arrays.total (F := Ideal) (Cert.ReferenceIdeal.Read.val_main_v35 (F := Ideal) P Q)
          (Cert.ReferenceIdeal.Read.val_main_v36 (F := Ideal) P Q) := rfl

/-- On real-valued inputs the kernel's two tables are the reference's. -/
theorem tables_eq (m : (ℓ : Loc Cert.KernelIdeal.nD Cert.KernelIdeal.τ Cert.KernelIdeal.sig) → Buf (Elt Ideal) ℓ)
    (c : Dev Cert.KernelIdeal.nD)
    (hP : ∀ i, ∃ r : ℝ, m ((c.tc : Thread Cert.KernelIdeal.nD Cert.KernelIdeal.τ).loc Cert.KernelIdeal.main_arg0) i = (r : EReal))
    (hQ : ∀ i, ∃ r : ℝ, m ((c.tc : Thread Cert.KernelIdeal.nD Cert.KernelIdeal.τ).loc Cert.KernelIdeal.main_arg1) i = (r : EReal)) :
    Cert.KernelIdeal.Arrays.tablePQ (Cert.KernelIdeal.Gen.V m c Cert.KernelIdeal.main_v0) (Cert.KernelIdeal.Gen.V m c Cert.KernelIdeal.main_v1)
        = Cert.ReferenceIdeal.Read.val_main_v35 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
    ∧ Cert.KernelIdeal.Arrays.tableQP (Cert.KernelIdeal.Gen.V m c Cert.KernelIdeal.main_v0) (Cert.KernelIdeal.Gen.V m c Cert.KernelIdeal.main_v1)
        = Cert.ReferenceIdeal.Read.val_main_v36 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)) := by
  constructor
  · funext j
    obtain ⟨b, n, rfl⟩ : ∃ (b : Fin 64) (n : Fin 512), j = ValueIdx.ix2 b n := ⟨j 0, j 1, ValueIdx.eq_ix2 j⟩
    rw [Cert.KernelIdeal.Tables.tablePQ_apply, Cert.ReferenceIdeal.RefValue.v35_apply]
    exact Cert.Chamfer.kerPQ_eq_refPQ _ _ hP hQ b n
  · funext j
    obtain ⟨b, n, rfl⟩ : ∃ (b : Fin 64) (n : Fin 512), j = ValueIdx.ix2 b n := ⟨j 0, j 1, ValueIdx.eq_ix2 j⟩
    rw [Cert.KernelIdeal.Tables.tableQP_apply, Cert.ReferenceIdeal.RefValue.v36_apply]
    exact Cert.Chamfer.kerQP_eq_refQP _ _ hP hQ b n

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- Both programs end with the final sums of the same two tables. -/
theorem algebraic : Cert.algebraic_KernelIdeal_ReferenceIdeal := by
  intro m ρ m' ρ' hpre hagree
  refine ⟨fun c => Cert.KernelIdeal.Arrays.total
      (Cert.KernelIdeal.Arrays.tablePQ (Cert.KernelIdeal.Gen.V m c Cert.KernelIdeal.main_v0) (Cert.KernelIdeal.Gen.V m c Cert.KernelIdeal.main_v1))
      (Cert.KernelIdeal.Arrays.tableQP (Cert.KernelIdeal.Gen.V m c Cert.KernelIdeal.main_v0) (Cert.KernelIdeal.Gen.V m c Cert.KernelIdeal.main_v1)),
    Cert.KernelIdeal.Arrays.run_tables m ρ, ?_⟩
  refine (θ_run Cert.ReferenceIdeal.defs _ _).mono (fun _ h c => ⟨(h c).1.trans ?_, (h c).2⟩)
    (Cert.ReferenceIdeal.Value.run (F := Ideal) m' ρ')
  obtain ⟨hP, hQ⟩ := Cert.Finite.real_of_pre _ _ (hpre c)
  obtain ⟨e1, e2⟩ := tables_eq m c hP hQ
  rw [Cert.ReferenceIdeal.Read.val_main_v39_eq, (hagree c).1, (hagree c).2, ref_total]
  dsimp only
  rw [e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
